-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64x10 .f32) (main_arg24 : FVec F S10 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x10 .f32 := Host.absf main_arg23
  let main_cst_40 : FVec F S_ .f32 := constant S_ .f32 0x7F800000#32
  let main_v105 : FVec F S64x10 .f32 := broadcastInDim S64x10 ![] bcast_S_S64x10 main_cst_40
  let main_v106 : IVec S64x10 1 := cmpf .olt main_v104 main_v105
  let main_c_41 : IVec S_ 1 := constantI S_ 1 1#1
  let main_v107 : IVec S_ 1 := (fun x v => Host.reduce IntOp.andi x v reducesTo_S64x10_S_d0_1 h_S_) main_v106 main_c_41
  let main_v108 : IVec S_ 1 := andi main_v103 main_v107
  let main_v109 : FVec F S10 .f32 := Host.absf main_arg24
  let main_cst_42 : FVec F S_ .f32 := constant S_ .f32 0x7F800000#32
  let main_v110 : FVec F S10 .f32 := broadcastInDim S10 ![] bcast_S_S10 main_cst_42
  let main_v111 : IVec S10 1 := cmpf .olt main_v109 main_v110
  let main_c_43 : IVec S_ 1 := constantI S_ 1 1#1
  let main_v112 : IVec S_ 1 := (fun x v => Host.reduce IntOp.andi x v reducesTo_S10_S_d0 h_S_) main_v111 main_c_43
  let main_v113 : IVec S_ 1 := andi main_v108 main_v112
  main_v113

def fn_part5 {F : FTy → Type} [FloatOps F] (main_arg20 : FVec F S128 .f32) (main_arg21 : FVec F S128x64 .f32) (main_arg22 : FVec F S64 .f32) (main_arg23 : FVec F S64x10 .f32) (main_arg24 : FVec F S10 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x64 .f32 := Host.absf main_arg21
  let main_cst_36 : FVec F S_ .f32 := constant S_ .f32 0x7F800000#32
  let main_v95 : FVec F S128x64 .f32 := broadcastInDim S128x64 ![] bcast_S_S128x64 main_cst_36
  let main_v96 : IVec S128x64 1 := cmpf .olt main_v94 main_v95
  let main_c_37 : IVec S_ 1 := constantI S_ 1 1#1
  let main_v97 : IVec S_ 1 := (fun x v => Host.reduce IntOp.andi x v reducesTo_S128x64_S_d0_1 h_S_) main_v96 main_c_37
  let main_v98 : IVec S_ 1 := andi main_v93 main_v97
  let main_v99 : FVec F S64 .f32 := Host.absf main_arg22
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x10 .f32) (main_arg24 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x10 .f32) (main_arg24 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x10 .f32) (main_arg24 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x10 .f32) (main_arg24 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S100000x13 .f32) (main_arg1 : IVec S2x1600000 32) (main_arg2 : IVec S100000 32) (main_arg3 : FVec F S13x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128 .f32) (main_arg14 : FVec F S128 .f32) (main_arg15 : FVec F S128x128 .f32) (main_arg16 : FVec F S128 .f32) (main_arg17 : FVec F S128 .f32) (main_arg18 : FVec F S128 .f32) (main_arg19 : FVec F S128 .f32) (main_arg20 : FVec F S128 .f32) (main_arg21 : FVec F S128x64 .f32) (main_arg22 : FVec F S64 .f32) (main_arg23 : FVec F S64x10 .f32) (main_arg24 : FVec F S10 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S13x128 .f32 := Host.absf main_arg3
  let main_cst_0 : FVec F S_ .f32 := constant S_ .f32 0x7F800000#32
  let main_v5 : FVec F S13x128 .f32 := broadcastInDim S13x128 ![] bcast_S_S13x128 main_cst_0
  let main_v6 : IVec S13x128 1 := cmpf .olt main_v4 main_v5
  let main_c_1 : IVec S_ 1 := constantI S_ 1 1#1
  let main_v7 : IVec S_ 1 := (fun x v => Host.reduce IntOp.andi x v reducesTo_S13x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S5000x13 : Shape := ⟨2, ![5000, 13]⟩
abbrev S5000x128 : Shape := ⟨2, ![5000, 128]⟩
abbrev S1600000x128 : Shape := ⟨2, ![1600000, 128]⟩
abbrev S5000x1 : Shape := ⟨2, ![5000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S512x64 : Shape := ⟨2, ![512, 64]⟩
abbrev S1x64 : Shape := ⟨2, ![1, 64]⟩
abbrev S1x10 : Shape := ⟨2, ![1, 10]⟩

abbrev nBuf : Space → Nat
  | .hbm => 131
  | .vmem => 60
  | .smem => 0
  | _ => 0

abbrev hbmTy0_0 (i : Nat) : BufTy := match i % 128 with
  | 0 => ⟨S100000x13, .f32⟩
  | 1 => ⟨S2x1600000, .i32⟩
  | 2 => ⟨S100000, .i32⟩
  | 3 => ⟨S13x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S100000, .f32⟩
  | 59 => ⟨S100000x1, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x1, .f32⟩
  | 71 => ⟨S1600000x128, .f32⟩
  | 72 => ⟨S1600000x128, .f32⟩
  | 73 => ⟨S_, .f32⟩
  | 74 => ⟨S100000x128, .f32⟩
  | 75 => ⟨S1600000x1, .i32⟩
  | 76 => ⟨S100000x128, .f32⟩
  | 77 => ⟨S100000x128, .f32⟩
  | 78 => ⟨S100000x128, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x128, .f32⟩
  | 88 => ⟨S1600000x1, .f32⟩
  | 89 => ⟨S1600000x128, .f32⟩
  | 90 => ⟨S1600000x128, .f32⟩
  | 91 => ⟨S_, .f32⟩
  | 92 => ⟨S100000x128, .f32⟩
  | 93 => ⟨S1600000x1, .i32⟩
  | 94 => ⟨S100000x128, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x1, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S100000x128, .f32⟩
  | 114 => ⟨S_, .f32⟩
  | 115 => ⟨S512x128, .f32⟩
  | 116 => ⟨S100000x1, .i32⟩
  | 117 => ⟨S512x128, .f32⟩
  | 118 => ⟨S_, .f32⟩
  | 119 => ⟨S100000, .f32⟩
  | 120 => ⟨S_, .f32⟩
  | 121 => ⟨S512, .f32⟩
  | 122 => ⟨S100000x1, .i32⟩
  | 123 => ⟨S512, .f32⟩
  | 124 => ⟨S_, .f32⟩
  | 125 => ⟨S512, .f32⟩
  | 126 => ⟨S512, .f32⟩
  | 127 => ⟨S512x1, .f32⟩
  | _ => ⟨S100000x13, .f32⟩

abbrev hbmTy0_1 (i : Nat) : BufTy := match i % 128 with
  | 0 => ⟨S512x128, .f32⟩
  | 1 => ⟨S512x128, .f32⟩
  | 2 => ⟨S512x10, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | .local _ .vmem, ⟨0, _⟩ => ⟨S5000x13, .f32⟩
  | .local _ .vmem, ⟨1, _⟩ => ⟨S5000x13, .f32⟩
  | .local _ .vmem, ⟨2, _⟩ => ⟨S13x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S128, .f32⟩
  | .local _ .vmem, ⟨51, _⟩ => ⟨S128, .f32⟩
  | .local _ .vmem, ⟨52, _⟩ => ⟨S5000x128, .f32⟩
  | .local _ .vmem, ⟨53, _⟩ => ⟨S5000x128, .f32⟩
  | .local _ .vmem, ⟨54, _⟩ => ⟨S512x128, .f32⟩
  | .local _ .vmem, ⟨55, _⟩ => ⟨S128x64, .f32⟩
  | .local _ .vmem, ⟨56, _⟩ => ⟨S64, .f32⟩
  | .local _ .vmem, ⟨57, _⟩ => ⟨S64x10, .f32⟩
  | .local _ .vmem, ⟨58, _⟩ => ⟨S10, .f32⟩
  | .local _ .vmem, ⟨59, _⟩ => ⟨S512x10, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_c_5 : Ref sig .tc := ⟨.hbm, 61, rfl⟩
abbrev main_v29 : Ref sig .tc := ⟨.hbm, 62, rfl⟩
abbrev main_v30 : Ref sig .tc := ⟨.hbm, 63, rfl⟩
abbrev main_c_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_c_8 : Ref sig .tc := ⟨.hbm, 79, rfl⟩
abbrev main_v44 : Ref sig .tc := ⟨.hbm, 80, rfl⟩
abbrev main_v45 : Ref sig .tc := ⟨.hbm, 81, rfl⟩
abbrev main_c_9 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_v59 : Ref sig .tc := ⟨.hbm, 98, rfl⟩
abbrev main_v60 : Ref sig .tc := ⟨.hbm, 99, rfl⟩
abbrev main_c_12 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_13 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_15 : Ref sig .tc := ⟨.hbm, 118, rfl⟩
abbrev main_v76 : Ref sig .tc := ⟨.hbm, 119, rfl⟩
abbrev main_cst_16 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_17 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc3_stg7_0 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg6_0 : Ref sig .tc := ⟨.vmem, 50, rfl⟩
abbrev cc5_stg7_0 : Ref sig .tc := ⟨.vmem, 51, rfl⟩
abbrev cc5_stg8_0 : Ref sig .tc := ⟨.vmem, 52, rfl⟩
abbrev cc5_stg8_1 : Ref sig .tc := ⟨.vmem, 53, rfl⟩
abbrev cc6_stg0_0 : Ref sig .tc := ⟨.vmem, 54, rfl⟩
abbrev cc6_stg1_0 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem5_0 : DmaSem sig := 31
abbrev cc3_sem6_0 : DmaSem sig := 32
abbrev cc3_sem7_0 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem4_0 : DmaSem sig := 48
abbrev cc5_sem5_0 : DmaSem sig := 49
abbrev cc5_sem6_0 : DmaSem sig := 50
abbrev cc5_sem7_0 : DmaSem sig := 51
abbrev cc5_sem8_0 : DmaSem sig := 52
abbrev cc5_sem8_1 : DmaSem sig := 53
abbrev cc6_sem0_0 : DmaSem sig := 54
abbrev cc6_sem1_0 : DmaSem sig := 55
abbrev cc6_sem2_0 : DmaSem sig := 56
abbrev cc6_sem3_0 : DmaSem sig := 57
abbrev cc6_sem4_0 : DmaSem sig := 58
abbrev cc6_sem5_0 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S5000x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x13_S5000x13_0_0 : ∀ a, (![0, 0] : Fin 2 → Nat) a + S5000x13.size a ≤ S5000x13.size a
  h_S5000x13 : 0 < S5000x13.numel
  bitsLt_bf16_f32 : FTy.bits .bf16 < FTy.bits .f32
  inb_S13x128_S13x128_0_0 : ∀ a, (![0, 0] : Fin 2 → Nat) a + S13x128.size a ≤ S13x128.size a
  h_S13x128 : 0 < S13x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x13_S13x128_S5000x128_1_0_0_1_n_n_wf : DotDims.WF S5000x13 S13x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x13.size a ≤ S100000x13.size a
  hwx0_0 : ∀ i : grid0.Coords, EltTy.bits .f32 = 32 ∨ (Rect.block (s := S100000x13) S5000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x128.size a ≤ S13x128.size a
  hwx0_1 : ∀ i : grid0.Coords, EltTy.bits .f32 = 32 ∨ (Rect.block (s := S13x128) S13x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x128.size a ≤ S100000x128.size a
  hwx1_8 : ∀ i : grid1.Coords, EltTy.bits .f32 = 32 ∨ (Rect.block (s := S100000x128) S5000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x128.size a ≤ S100000x128.size a
  hwx3_8 : ∀ i : grid3.Coords, EltTy.bits .f32 = 32 ∨ (Rect.block (s := S100000x128) S5000x128.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128.size a ≤ S128.size a
  hwx5_6 : ∀ i : grid5.Coords, EltTy.bits .f32 = 32 ∨ (Rect.block (s := S128) S128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S128.size a ≤ S128.size a
  hwx5_7 : ∀ i : grid5.Coords, EltTy.bits .f32 = 32 ∨ (Rect.block (s := S128) S128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x128.size a ≤ S100000x128.size a
  hwx5_8 : ∀ i : grid5.Coords, EltTy.bits .f32 = 32 ∨ (Rect.block (s := S100000x128) S5000x128.size (cc5_transform_8 i) (hinb5_8 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x10.size a ≤ S64x10.size a
  hwx6_3 : ∀ i : grid6.Coords, EltTy.bits .f32 = 32 ∨ (Rect.block (s := S64x10) S64x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S10.size a ≤ S10.size a
  hwx6_4 : ∀ i : grid6.Coords, EltTy.bits .f32 = 32 ∨ (Rect.block (s := S10) S10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x10.size a ≤ S512x10.size a
  hwx6_5 : ∀ i : grid6.Coords, EltTy.bits .f32 = 32 ∨ (Rect.block (s := S512x10) S512x10.size (cc6_transform_5 i) (hinb6_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x13_S13x128_S5000x128_1_0_0_1_n_n : DotDims S5000x13 S13x128 S5000x128 where
  lhsContracting := [1]
  rhsContracting := [0]
  lhsNonContracting := [0]
  rhsNonContracting := [1]
  lhsBatch := []
  rhsBatch := []
  wf := dot_S5000x13_S13x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S5000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S13x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg7) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg8) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S5000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg14) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57) S5000x128.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v57) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v58) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg16) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg17) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg19) S128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_arg20) S128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v72) S5000x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v84) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg22) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S64x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg24) S10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v85) S512x10.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x13 : Shape := ⟨2, ![100000, 13]⟩
abbrev S2x1600000 : Shape := ⟨2, ![2, 1600000]⟩
abbrev S100000 : Shape := ⟨1, ![100000]⟩
abbrev S13x128 : Shape := ⟨2, ![13, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S512x10 : Shape := ⟨2, ![512, 10]⟩
abbrev S1x10 : Shape := ⟨2, ![1, 10]⟩

abbrev nBuf : Space → Nat
  | .hbm => 215
  | .vmem => 0
  | .smem => 0
  | _ => 0

abbrev hbmTy0_0 (i : Nat) : BufTy := match i % 128 with
  | 0 => ⟨S100000x13, .f32⟩
  | 1 => ⟨S2x1600000, .i32⟩
  | 2 => ⟨S100000, .i32⟩
  | 3 => ⟨S13x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128, .f32⟩
  | 14 => ⟨S128, .f32⟩
  | 15 => ⟨S128x128, .f32⟩
  | 16 => ⟨S128, .f32⟩
  | 17 => ⟨S128, .f32⟩
  | 18 => ⟨S128, .f32⟩
  | 19 => ⟨S128, .f32⟩
  | 20 => ⟨S128, .f32⟩
  | 21 => ⟨S128x64, .f32⟩
  | 22 => ⟨S64, .f32⟩
  | 23 => ⟨S64x10, .f32⟩
  | 24 => ⟨S10, .f32⟩
  | 25 => ⟨S1x1600000, .i32⟩
  | 26 => ⟨S1600000, .i32⟩
  | 27 => ⟨S1x1600000, .i32⟩
  | 28 => ⟨S1600000, .i32⟩
  | 29 => ⟨S_, .f32⟩
  | 30 => ⟨S1600000, .f32⟩
  | 31 => ⟨S_, .f32⟩
  | 32 => ⟨S100000, .f32⟩
  | 33 => ⟨S1600000x1, .i32⟩
  | 34 => ⟨S100000, .f32⟩
  | 35 => ⟨S_, .f32⟩
  | 36 => ⟨S100000, .f32⟩
  | 37 => ⟨S100000, .f32⟩
  | 38 => ⟨S100000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000, .f32⟩
  | 57 => ⟨S1600000, .f32⟩
  | 58 => ⟨S100000, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S1600000x1, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x1, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x1, .f32⟩
  | 113 => ⟨S1600000x128, .f32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x13, .f32⟩

abbrev hbmTy0_1 (i : Nat) : BufTy := match i % 128 with
  | 0 => ⟨S100000x128, .f32⟩
  | 1 => ⟨S_, .f32⟩
  | 2 => ⟨S128, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S1x128, .f32⟩
  | 9 => ⟨S100000x128, .f32⟩
  | 10 => ⟨S100000x128, .f32⟩
  | 11 => ⟨S1x128, .f32⟩
  | 12 => ⟨S100000x128, .f32⟩
  | 13 => ⟨S100000x128, .f32⟩
  | 14 => ⟨S_, .f32⟩
  | 15 => ⟨S100000x128, .f32⟩
  | 16 => ⟨S100000x128, .f32⟩
  | 17 => ⟨S100000x128, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S1600000x128, .f32⟩
  | 27 => ⟨S1600000x1, .f32⟩
  | 28 => ⟨S1600000x128, .f32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x1, .f32⟩
  | 35 => ⟨S100000x128, .f32⟩
  | 36 => ⟨S100000x128, .f32⟩
  | 37 => ⟨S100000x128, .f32⟩
  | 38 => ⟨S1x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S512x128, .f32⟩
  | 62 => ⟨S100000x1, .i32⟩
  | 63 => ⟨S512x128, .f32⟩
  | 64 => ⟨S_, .f32⟩
  | 65 => ⟨S100000, .f32⟩
  | 66 => ⟨S_, .f32⟩
  | 67 => ⟨S512, .f32⟩
  | 68 => ⟨S100000x1, .i32⟩
  | 69 => ⟨S512, .f32⟩
  | 70 => ⟨S_, .f32⟩
  | 71 => ⟨S512, .f32⟩
  | 72 => ⟨S512, .f32⟩
  | 73 => ⟨S512x1, .f32⟩
  | 74 => ⟨S512x128, .f32⟩
  | 75 => ⟨S512x128, .f32⟩
  | 76 => ⟨S512x64, .f32⟩
  | 77 => ⟨S1x64, .f32⟩
  | 78 => ⟨S512x64, .f32⟩
  | 79 => ⟨S512x64, .f32⟩
  | 80 => ⟨S_, .f32⟩
  | 81 => ⟨S512x64, .f32⟩
  | 82 => ⟨S512x64, .f32⟩
  | 83 => ⟨S512x10, .f32⟩
  | 84 => ⟨S1x10, .f32⟩
  | 85 => ⟨S512x10, .f32⟩
  | 86 => ⟨S512x10, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_cst_0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c : Ref sig .tc := ⟨.hbm, 39, rfl⟩
abbrev main_v11 : Ref sig .tc := ⟨.hbm, 40, rfl⟩
abbrev main_v12 : Ref sig .tc := ⟨.hbm, 41, rfl⟩
abbrev main_c_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_5 : Ref sig .tc := ⟨.hbm, 60, rfl⟩
abbrev main_v28 : Ref sig .tc := ⟨.hbm, 61, rfl⟩
abbrev main_v29 : Ref sig .tc := ⟨.hbm, 62, rfl⟩
abbrev main_c_6 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_8 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call0_cst : Ref sig .tc := ⟨.hbm, 99, rfl⟩
abbrev main_call0_v0 : Ref sig .tc := ⟨.hbm, 100, rfl⟩
abbrev main_v63 : Ref sig .tc := ⟨.hbm, 101, rfl⟩
abbrev main_v64 : Ref sig .tc := ⟨.hbm, 102, rfl⟩
abbrev main_c_9 : Ref sig .tc := ⟨.hbm, 103, rfl⟩
abbrev main_v65 : Ref sig .tc := ⟨.hbm, 104, rfl⟩
abbrev main_v66 : Ref sig .tc := ⟨.hbm, 105, rfl⟩
abbrev main_c_10 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_11 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_12 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call1_cst : Ref sig .tc := ⟨.hbm, 142, rfl⟩
abbrev main_call1_v0 : Ref sig .tc := ⟨.hbm, 143, rfl⟩
abbrev main_v100 : Ref sig .tc := ⟨.hbm, 144, rfl⟩
abbrev main_v101 : Ref sig .tc := ⟨.hbm, 145, rfl⟩
abbrev main_c_13 : Ref sig .tc := ⟨.hbm, 146, rfl⟩
abbrev main_v102 : Ref sig .tc := ⟨.hbm, 147, rfl⟩
abbrev main_v103 : Ref sig .tc := ⟨.hbm, 148, rfl⟩
abbrev main_c_14 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_15 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_16 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_call2_cst : Ref sig .tc := ⟨.hbm, 185, rfl⟩
abbrev main_call2_v0 : Ref sig .tc := ⟨.hbm, 186, rfl⟩
abbrev main_v137 : Ref sig .tc := ⟨.hbm, 187, rfl⟩
abbrev main_cst_17 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_cst_18 : Ref sig .tc := ⟨.hbm, 192, rfl⟩
abbrev main_v141 : Ref sig .tc := ⟨.hbm, 193, rfl⟩
abbrev main_cst_19 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_20 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_call3_cst : Ref sig .tc := ⟨.hbm, 208, rfl⟩
abbrev main_call3_v0 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x13_S13x128_S100000x128_1_0_0_1_n_n_wf : DotDims.WF S100000x13 S13x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x64_S512x64_1_0_0_1_n_n_wf : DotDims.WF S512x128 S128x64 S512x64 [1] [0] [0] [1] [] []
  dot_S512x64_S64x10_S512x10_1_0_0_1_n_n_wf : DotDims.WF S512x64 S64x10 S512x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x13_S13x128_S100000x128_1_0_0_1_n_n : DotDims S100000x13 S13x128 S100000x128 where
  lhsContracting := [1]
  rhsContracting := [0]
  lhsNonContracting := [0]
  rhsNonContracting := [1]
  lhsBatch := []
  rhsBatch := []
  wf := dot_S100000x13_S13x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KernelRun.lean ====
/-
  The kernel program's run with its result named.

  Every weakly fair execution of the program on the cores terminates without a fault; at the end the result buffer
  holds what the fold of the program's segments over the launch memory leaves there — each stretch of host operations
  applied in order, each pipelined region's arrays at what its write-backs leave — and every argument array is as
  launched.  The launch over the segments is the one that proves the program's frame; only the final read-out differs:
  beside the arguments it reads the result buffer at the last boundary's contents.
-/
import proofs.«152409_j70626442215629_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run_result : θ_run defs (onTc (τ := τ) (main (F := F))) ⟨m, fun _ => 0, ρ⟩ (fun r => ∀ c : Dev nD,
      r.2.mem ((c.tc : Thread nD τ).loc main_v85) = W12 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v85 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c),
       (h c _ (mem_uc main_arg19 (by decide))).trans (W12_main_arg19 m ρ c),
       (h c _ (mem_uc main_arg20 (by decide))).trans (W12_main_arg20 m ρ c),
       (h c _ (mem_uc main_arg21 (by decide))).trans (W12_main_arg21 m ρ c),
       (h c _ (mem_uc main_arg22 (by decide))).trans (W12_main_arg22 m ρ c),
       (h c _ (mem_uc main_arg23 (by decide))).trans (W12_main_arg23 m ρ c),
       (h c _ (mem_uc main_arg24 (by decide))).trans (W12_main_arg24 m ρ c)⟩)

end Cert.KernelIdeal.RunValue

end
-- ==== Proof.Spec.lean ====
/-
  The dense pieces of a three-layer graph convolution network, as whole-array functions on the extended reals.

  Each layer multiplies the node features by a weight, adds to the edge-aggregated messages the node's own
  product scaled by its self-loop norm and a bias, normalises every column with fixed statistics
  (x ↦ (x - mean) · (variance + ε)^(-1/2) · scale + shift) and clips at zero.  After pooling, a two-layer perceptron
  max(p·W₁ + b₁, 0)·W₂ + b₂ gives the class scores.  The functions below are these pieces written with whole-array
  operations: a contraction over the shared axis, a length-n vector laid along the columns of every row, an [n, 1]
  column repeated along the rows' entries, and entrywise arithmetic.
-/
import proofs.«152409_j70626442215629_1_alg».proof.Proof.Gen.ReferenceIdeal
import Idealize.ShloMosaic.PureOps.Ideal

noncomputable section

namespace Cert.Gcn

open Idealize.ShloMosaic Cert.ReferenceIdeal Cert.ReferenceIdeal.Facts₀ Cert.ReferenceIdeal.Facts

/-- Node features [100000, 13] times a [13, 128] weight. -/
def dense13 (x : FVec Ideal S100000x13 .f32) (w : FVec Ideal S13x128 .f32) : FVec Ideal S100000x128 .f32 :=
  Host.dotGeneral (F := Ideal) dot_S100000x13_S13x128_S100000x128_1_0_0_1_n_n none x w

/-- Node features [100000, 128] times a [128, 128] weight. -/
def dense128 (h : FVec Ideal S100000x128 .f32) (w : FVec Ideal S128x128 .f32) : FVec Ideal S100000x128 .f32 :=
  Host.dotGeneral (F := Ideal) dot_S100000x128_S128x128_S100000x128_1_0_0_1_n_n none h w

/-- A length-128 vector laid along the columns of each of the 100000 rows. -/
def alongRows (u : FVec Ideal S128 .f32) : FVec Ideal S100000x128 .f32 :=
  broadcastInDim S100000x128 ![0, 1] bcast_S1x128_S100000x128_0_1 (broadcastInDim S1x128 ![1] bcast_S128_S1x128_1 u)

/-- One layer's entrywise half: max((((agg + lin · s) + b) - mean) · (var + ε)^(-1/2) · scale + shift, 0), with the
    self-loop norm `s` an [100000, 1] column repeated along each row and the five length-128 vectors laid along the rows. -/
def normClip (agg lin : FVec Ideal S100000x128 .f32) (s : FVec Ideal S100000x1 .f32)
    (b scale shift mean var : FVec Ideal S128 .f32) : FVec Ideal S100000x128 .f32 :=
  maximumf
    (addf (mulf (mulf (subf (addf (addf agg (mulf lin (broadcastInDim S100000x128 ![0, 1] bcast_S100000x1_S100000x128_0_1 s)))
        (alongRows b)) (alongRows mean))
      (alongRows (Host.rsqrt (F := Ideal) (addf var (broadcastInDim S128 ![] bcast_S_S128 (constant (F := Ideal) S_ .f32 0x3727C5AC#32))))))
      (alongRows scale)) (alongRows shift))
    (broadcastInDim S100000x128 ![] bcast_S_S100000x128 (constant (F := Ideal) S_ .f32 0x00000000#32))

/-- The classifier on the pooled features: max(p·W₁ + b₁, 0)·W₂ + b₂. -/
def classify (p : FVec Ideal S512x128 .f32) (w1 : FVec Ideal S128x64 .f32) (b1 : FVec Ideal S64 .f32)
    (w2 : FVec Ideal S64x10 .f32) (b2 : FVec Ideal S10 .f32) : FVec Ideal S512x10 .f32 :=
  addf
    (Host.dotGeneral (F := Ideal) dot_S512x64_S64x10_S512x10_1_0_0_1_n_n none
      (maximumf
        (addf (Host.dotGeneral (F := Ideal) dot_S512x128_S128x64_S512x64_1_0_0_1_n_n none p w1)
          (broadcastInDim S512x64 ![0, 1] bcast_S1x64_S512x64_0_1 (broadcastInDim S1x64 ![1] bcast_S64_S1x64_1 b1)))
        (broadcastInDim S512x64 ![] bcast_S_S512x64 (constant (F := Ideal) S_ .f32 0x00000000#32)))
      w2)
    (broadcastInDim S512x10 ![0, 1] bcast_S1x10_S512x10_0_1 (broadcastInDim S1x10 ![1] bcast_S10_S1x10_1 b2))

end Cert.Gcn

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibHostRowOps.lean ====
/-
  Host operations on two-dimensional arrays read at one index, on the extended reals.

  A jnp reference that applies dense layers and a row-wise normalisation is a composition of a few host operations on
  [a, b] arrays. Each lemma below reads one of them at the index (r, c), both coordinates explicit: a plain
  `dot_general` is the sum over the shared axis; a `reduce` along the second axis with a maximum body is the fold of
  `max` over that row from the initial value, and the float sum along it is the initial value plus the row's sum; a
  `broadcast_in_dim` of a vector to a [1, b] row or an [a, 1] column, and of such a row or column to an [a, b]
  array, only moves coordinates.
-/
import Idealize.ShloMosaic.PureOps.Ideal.Laws
import Idealize.ShloMosaic.Lib.ValueIdx
import Idealize.ShloMosaic.Lib.Pipeline.Value
import Idealize.ShloMosaic.Lib.IdealHost
import proofs.«152409_j70626442215629_1_alg».proof.Proof.LibRowOps

noncomputable section

namespace Cert.HostRowOps

open Idealize.ShloMosaic Idealize.ShloMosaic.ValueIdx

/-! ## A plain host product -/

section Plain

variable {M K N : Nat} {d : DotDims ⟨2, ![M, K]⟩ ⟨2, ![K, N]⟩ ⟨2, ![M, N]⟩}

/-- The host's plain `[M, K] × [K, N]` product at (r, c): the sum over the shared axis of the products. -/
theorem dot_apply (hd : RowOps.IsPlain d) {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral d prec lhs rhs (ix2 r c) = ∑ k : Fin K, lhs (ix2 r k) * rhs (ix2 k c) := by
  simp only [Host.dotGeneral]
  rw [Ideal.dotGeneral_apply,
    ← Equiv.sum_comp (contrEquiv1 d K (RowOps.contr_rank hd) (RowOps.contr_size hd)).symm]
  refine Finset.sum_congr rfl fun k _ => ?_
  have hk := contrEquiv1_symm_val d K (RowOps.contr_rank hd) (RowOps.contr_size hd) k
  have el : d.lhsIdx (ix2 r c) ((contrEquiv1 d K (RowOps.contr_rank hd) (RowOps.contr_size hd)).symm k) = ix2 r k :=
    funext fun a => Fin.ext (by
      match a with
      | ⟨0, _⟩ => exact RowOps.lhsIdx_row hd _ _
      | ⟨1, _⟩ => exact (d.lhsIdx_val_of_single hd.lc _ _).trans hk)
  have er : d.rhsIdx (ix2 r c) ((contrEquiv1 d K (RowOps.contr_rank hd) (RowOps.contr_size hd)).symm k) = ix2 k c :=
    funext fun a => Fin.ext (by
      match a with
      | ⟨0, _⟩ => exact (d.rhsIdx_val_of_single hd.rc _ _).trans hk
      | ⟨1, _⟩ => exact RowOps.rhsIdx_col hd _ _)
  rw [el, er]

end Plain

/-! ## Host reductions along the second axis -/

section Rows

variable {a b : Nat} {φ : FTy} {u : Shape}

/-- The host's `reduce` with a maximum body along the second axis, at row `r`: the fold of `max` over that row from the
    initial value's element. -/
theorem rowMax_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (RowOps.lift_row h r k))

/-- The host's float sum along the second axis, at row `r`: the initial value's element plus the sum of that row. -/
theorem rowSum_apply (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  rw [hostReduceAdd_apply, Ideal.hostReduceAdd_single h' h]
  exact congrArg (init (Shape.Idx.first hu) + ·) (Finset.sum_congr rfl fun k _ => congrArg x (RowOps.lift_row h r k))

end Rows

/-! ## Moving coordinates -/

section Layout

variable {α : Type} {a b : Nat}

/-- A length-`b` vector laid along the second axis of a `[1, b]` row reads, at (u, j), the vector at j. -/
theorem vecToRow_apply (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply _ h x _ _ (fun c => by
    match c with
    | ⟨0, _⟩ =>
      show j.val = if b = 1 then 0 else j.val
      split
      · next h1 => have := j.isLt; omega
      · rfl)

/-- A `[1, b]` row repeated along a first axis reads, at (i, j), the row at (0, j). -/
theorem rowToMat_apply (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) :=
  broadcastInDim_apply _ h x _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- A length-`a` vector laid along the first axis of an `[a, 1]` column reads, at (i, u), the vector at i. -/
theorem vecToCol_apply (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · next h1 => have := i.isLt; omega
      · rfl)

/-- An `[a, 1]` column repeated along a second axis reads, at (i, j), the column at (i, 0). -/
theorem colToMat_apply (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) :=
  broadcastInDim_apply _ h x _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

end Layout

end Cert.HostRowOps

end
-- ==== Proof.Dense0.lean ====
/-
  Region 0: node features [100000, 13] times a [13, 128] weight, 5000 rows at a time.

  Each of the 20 grid points multiplies one block of 5000 rows by the whole weight into a zero accumulator and writes the
  product back as the same 5000 rows of the output.  Entry (p, q) of the block at point t is ∑ k, x(5000·t + p, k) · w(k, q),
  which is entry (5000·t + p, q) of the product of the whole arrays; the 20 blocks tile the 100000 rows.
-/
import proofs.«152409_j70626442215629_1_alg».proof.Proof.Spec
import proofs.«152409_j70626442215629_1_alg».proof.Proof.Gen.KernelIdeal.Frame
import proofs.«152409_j70626442215629_1_alg».proof.Proof.LibRowOps
import proofs.«152409_j70626442215629_1_alg».proof.Proof.LibHostRowOps
import Idealize.ShloMosaic.Lib.ValueIdx
import Idealize.ShloMosaic.Lib.Pipeline.Value

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

theorem zeroOffsets0 : (![0, 0] : Fin 2 → Nat) = fun _ => 0 :=
  funext fun a => by
    match a with
    | ⟨0, _⟩ => rfl
    | ⟨1, _⟩ => rfl

/-! ## One entry of the block product and of the whole product -/

/-- The block's product at (p, q): the sum over the 13 shared coordinates. -/
theorem blockRows0_apply (x : FVec Ideal S5000x13 .f32) (w : FVec Ideal S13x128 .f32) (p : Fin 5000) (q : Fin 128) :
    k0_pay1 x w (ix2 p q) = ∑ k : Fin 13, x (ix2 p k) * w (ix2 k q) := by
  unfold k0_pay1
  exact Cert.RowOps.matmul_zero_apply ⟨rfl, rfl, rfl, rfl, rfl, rfl⟩ none _ _ p q

/-- The whole product at (r, q): the same sum over the 13 shared coordinates. -/
theorem wholeRows0_apply (X : FVec Ideal S100000x13 .f32) (W : FVec Ideal S13x128 .f32) (r : Fin 100000) (q : Fin 128) :
    Cert.Gcn.dense13 X W (ix2 r q) = ∑ k : Fin 13, X (ix2 r k) * W (ix2 k q) := by
  unfold Cert.Gcn.dense13
  exact Cert.HostRowOps.dot_apply ⟨rfl, rfl, rfl, rfl, rfl, rfl⟩ none X W r q

/-- A block of 5000 rows starting at row 5000·t, multiplied by the same weight, is those rows of the whole product:
    entry j of the block product is entry i of the whole product when i is j moved down by 5000·t rows. -/
theorem point0 (X : FVec Ideal S100000x13 .f32) (W : FVec Ideal S13x128 .f32)
    (x : FVec Ideal S5000x13 .f32) (w : FVec Ideal S13x128 .f32) (t : Nat)
    (hx : ∀ (p : Fin 5000) (k : Fin 13) (r : Fin 100000), r.val = 5000 * t + p.val → x (ix2 p k) = X (ix2 r k))
    (hw : ∀ (k : Fin 13) (q : Fin 128), w (ix2 k q) = W (ix2 k q))
    (j : S5000x128.Idx) (i : S100000x128.Idx) (h0 : (i 0).val = 5000 * t + (j 0).val) (h1 : (i 1).val = (j 1).val) :
    k0_pay1 x w j = Cert.Gcn.dense13 X W i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = 5000 * t + p.val := h0
  rw [blockRows0_apply, wholeRows0_apply]
  exact Finset.sum_congr rfl fun k _ => by rw [hx p k r hr, hw k q']

/-! ## The windows' blocks as rows of the arrays -/

/-- The printed index maps over the grid: the rows' window and the output's window are at block (t, 0), the weight's
    window at block (0, 0). -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the rows' block at point t is row 5000·t + p of the array. -/
theorem rows0_apply (c : Dev nD) (t : Fin cfg0.N) (p : Fin 5000) (k : Fin 13) (r : Fin 100000)
    (hr : r.val = 5000 * t.val + p.val) :
    (iblk0 V c 0 t : FVec Ideal S5000x13 .f32) (ix2 p k) = (V c main_arg0 : FVec Ideal S100000x13 .f32) (ix2 r k) := by
  obtain ⟨e0, e1, -⟩ := blockIndex0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 13 + 1 * k.val = k.val; rw [e1]; omega

/-- The weight's block at every point is the weight. -/
theorem weight0_apply (c : Dev nD) (t : Fin cfg0.N) (k : Fin 13) (q : Fin 128) :
    (iblk0 V c 1 t : FVec Ideal S13x128 .f32) (ix2 k q) = (V c main_arg3 : FVec Ideal S13x128 .f32) (ix2 k q) := by
  obtain ⟨-, -, e2, e3, -⟩ := blockIndex0 t
  show V c main_arg3 (((cfg0.win 1).blk t).view.emb (ix2 k q)) = V c main_arg3 (ix2 k q)
  refine congrArg (V c main_arg3) (funext fun a => Fin.ext ?_)
  match a with
  | ⟨0, _⟩ => show win0_1.index t (0 : Fin 2) * 13 + 1 * k.val = k.val; rw [e2]; omega
  | ⟨1, _⟩ => show win0_1.index t (1 : Fin 2) * 128 + 1 * q.val = q.val; rw [e3]; omega

/-! ## What each point writes back, and the array after the last point -/

/-- Point t writes back block t of the whole product. -/
theorem flushed0_eq (c : Dev nD) (t : Fin cfg0.N) :
    (dat0 (F := Ideal) V c).flushed 2 t
      = ((cfg0.win 2).blk t).view.read (Elt Ideal) (Cert.Gcn.dense13 (V c main_arg0) (V c main_arg3)) := by
  show (cfg0.win 2).cut (grid0.coords t) ((dat0 V c).after 2 t) = _
  rw [after0_2]
  unfold out0_2
  rw [View.canon_unit_zero zeroOffsets0]
  simp only [View.ld_unit_zero (S := S5000x13) zeroOffsets0, View.ld_unit_zero (S := S13x128) zeroOffsets0]
  obtain ⟨-, -, -, -, e4, e5⟩ := blockIndex0 t
  funext j
  show k0_pay1 (iblk0 V c 0 t) (iblk0 V c 1 t) j
    = Cert.Gcn.dense13 (V c main_arg0) (V c main_arg3) (((cfg0.win 2).blk t).view.emb j)
  refine point0 (V c main_arg0) (V c main_arg3) (iblk0 V c 0 t) (iblk0 V c 1 t) t.val
    (fun p k r hr => rows0_apply V c t p k r hr) (fun k q => weight0_apply V c t k q) j _ ?_ ?_
  · show win0_2.index t (0 : Fin 2) * 5000 + 1 * (j 0).val = 5000 * t.val + (j 0).val
    rw [e4]; omega
  · show win0_2.index t (1 : Fin 2) * 128 + 1 * (j 1).val = (j 1).val
    rw [e5]; omega

/-- An index of the array is in point t's block iff each coordinate is in the block's range on its axis. -/
theorem mem_block0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v28).slice (win0_2.rect t)).set ↔ _
  rw [View.set_slice_whole, Rect.mem_set_unit]
  exact Iff.rfl

/-- Row r of the array is in the block of point r / 5000. -/
theorem covered0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, show (i 0).val / 5000 < grid0.N by omega⟩, rfl⟩
  obtain ⟨-, -, -, -, e4, e5⟩ := blockIndex0 t
  refine ⟨t, flush0_2 t, ?_⟩
  rw [mem_block0]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- After the last point the output array is the whole product of the rows' array and the weight. -/
theorem final0 (c : Dev nD) :
    (dat0 (F := Ideal) V c).arrAt 2 cfg0.N = Cert.Gcn.dense13 (V c main_arg0) (V c main_arg3) :=
  (dat0 (F := Ideal) V c).arrAt_eq_of_cover 2 (Cert.Gcn.dense13 (V c main_arg0) (V c main_arg3))
    (fun t _ => flushed0_eq V c t) covered0

end Cert.KernelIdeal.RegionValue

end
-- ==== Proof.Dense2.lean ====
/-
  Region 2: hidden features [100000, 128] times a [128, 128] weight, 5000 rows at a time.

  Each of the 20 grid points multiplies one block of 5000 rows by the whole weight into a zero accumulator and writes the
  product back as the same 5000 rows of the output.  Entry (p, q) of the block at point t is ∑ k, h(5000·t + p, k) · w(k, q),
  which is entry (5000·t + p, q) of the product of the whole arrays; the 20 blocks tile the 100000 rows.
-/
import proofs.«152409_j70626442215629_1_alg».proof.Proof.Spec
import proofs.«152409_j70626442215629_1_alg».proof.Proof.Gen.KernelIdeal.Frame
import proofs.«152409_j70626442215629_1_alg».proof.Proof.LibRowOps
import proofs.«152409_j70626442215629_1_alg».proof.Proof.LibHostRowOps
import Idealize.ShloMosaic.Lib.ValueIdx
import Idealize.ShloMosaic.Lib.Pipeline.Value

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

theorem zeroOffsets2 : (![0, 0] : Fin 2 → Nat) = fun _ => 0 :=
  funext fun a => by
    match a with
    | ⟨0, _⟩ => rfl
    | ⟨1, _⟩ => rfl

/-! ## One entry of the block product and of the whole product -/

/-- The block's product at (p, q): the sum over the 128 shared coordinates. -/
theorem blockRows2_apply (x : FVec Ideal S5000x128 .f32) (w : FVec Ideal S128x128 .f32) (p : Fin 5000) (q : Fin 128) :
    k2_pay1 x w (ix2 p q) = ∑ k : Fin 128, x (ix2 p k) * w (ix2 k q) := by
  unfold k2_pay1
  rw [shapeCast_self]
  exact Cert.RowOps.matmul_zero_apply ⟨rfl, rfl, rfl, rfl, rfl, rfl⟩ none _ _ p q

/-- The whole product at (r, q): the same sum over the 128 shared coordinates. -/
theorem wholeRows2_apply (X : FVec Ideal S100000x128 .f32) (W : FVec Ideal S128x128 .f32) (r : Fin 100000) (q : Fin 128) :
    Cert.Gcn.dense128 X W (ix2 r q) = ∑ k : Fin 128, X (ix2 r k) * W (ix2 k q) := by
  unfold Cert.Gcn.dense128
  exact Cert.HostRowOps.dot_apply ⟨rfl, rfl, rfl, rfl, rfl, rfl⟩ none X W r q

/-- A block of 5000 rows starting at row 5000·t, multiplied by the same weight, is those rows of the whole product:
    entry j of the block product is entry i of the whole product when i is j moved down by 5000·t rows. -/
theorem point2 (X : FVec Ideal S100000x128 .f32) (W : FVec Ideal S128x128 .f32)
    (x : FVec Ideal S5000x128 .f32) (w : FVec Ideal S128x128 .f32) (t : Nat)
    (hx : ∀ (p : Fin 5000) (k : Fin 128) (r : Fin 100000), r.val = 5000 * t + p.val → x (ix2 p k) = X (ix2 r k))
    (hw : ∀ (k : Fin 128) (q : Fin 128), w (ix2 k q) = W (ix2 k q))
    (j : S5000x128.Idx) (i : S100000x128.Idx) (h0 : (i 0).val = 5000 * t + (j 0).val) (h1 : (i 1).val = (j 1).val) :
    k2_pay1 x w j = Cert.Gcn.dense128 X W i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = 5000 * t + p.val := h0
  rw [blockRows2_apply, wholeRows2_apply]
  exact Finset.sum_congr rfl fun k _ => by rw [hx p k r hr, hw k q']

/-! ## The windows' blocks as rows of the arrays -/

/-- The printed index maps over the grid: the rows' window and the output's window are at block (t, 0), the weight's
    window at block (0, 0). -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row p of the rows' block at point t is row 5000·t + p of the array. -/
theorem rows2_apply (c : Dev nD) (t : Fin cfg2.N) (p : Fin 5000) (k : Fin 128) (r : Fin 100000)
    (hr : r.val = 5000 * t.val + p.val) :
    (iblk2 V c 0 t : FVec Ideal S5000x128 .f32) (ix2 p k) = (V c main_v42 : FVec Ideal S100000x128 .f32) (ix2 r k) := by
  obtain ⟨e0, e1, -⟩ := blockIndex2 t
  show V c main_v42 (((cfg2.win 0).blk t).view.emb (ix2 p k)) = V c main_v42 (ix2 r k)
  refine congrArg (V c main_v42) (funext fun a => Fin.ext ?_)
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight's block at every point is the weight. -/
theorem weight2_apply (c : Dev nD) (t : Fin cfg2.N) (k : Fin 128) (q : Fin 128) :
    (iblk2 V c 1 t : FVec Ideal S128x128 .f32) (ix2 k q) = (V c main_arg9 : FVec Ideal S128x128 .f32) (ix2 k q) := by
  obtain ⟨-, -, e2, e3, -⟩ := blockIndex2 t
  show V c main_arg9 (((cfg2.win 1).blk t).view.emb (ix2 k q)) = V c main_arg9 (ix2 k q)
  refine congrArg (V c main_arg9) (funext fun a => Fin.ext ?_)
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-! ## What each point writes back, and the array after the last point -/

/-- Point t writes back block t of the whole product. -/
theorem flushed2_eq (c : Dev nD) (t : Fin cfg2.N) :
    (dat2 (F := Ideal) V c).flushed 2 t
      = ((cfg2.win 2).blk t).view.read (Elt Ideal) (Cert.Gcn.dense128 (V c main_v42) (V c main_arg9)) := by
  show (cfg2.win 2).cut (grid2.coords t) ((dat2 V c).after 2 t) = _
  rw [after2_2]
  unfold out2_2
  rw [View.canon_unit_zero zeroOffsets2]
  simp only [View.ld_unit_zero (S := S5000x128) zeroOffsets2, View.ld_unit_zero (S := S128x128) zeroOffsets2]
  obtain ⟨-, -, -, -, e4, e5⟩ := blockIndex2 t
  funext j
  show k2_pay1 (iblk2 V c 0 t) (iblk2 V c 1 t) j
    = Cert.Gcn.dense128 (V c main_v42) (V c main_arg9) (((cfg2.win 2).blk t).view.emb j)
  refine point2 (V c main_v42) (V c main_arg9) (iblk2 V c 0 t) (iblk2 V c 1 t) t.val
    (fun p k r hr => rows2_apply V c t p k r hr) (fun k q => weight2_apply V c t k q) j _ ?_ ?_
  · show win2_2.index t (0 : Fin 2) * 5000 + 1 * (j 0).val = 5000 * t.val + (j 0).val
    rw [e4]; omega
  · show win2_2.index t (1 : Fin 2) * 128 + 1 * (j 1).val = (j 1).val
    rw [e5]; omega

/-- An index of the array is in point t's block iff each coordinate is in the block's range on its axis. -/
theorem mem_block2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v43).slice (win2_2.rect t)).set ↔ _
  rw [View.set_slice_whole, Rect.mem_set_unit]
  exact Iff.rfl

/-- Row r of the array is in the block of point r / 5000. -/
theorem covered2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, show (i 0).val / 5000 < grid2.N by omega⟩, rfl⟩
  obtain ⟨-, -, -, -, e4, e5⟩ := blockIndex2 t
  refine ⟨t, flush2_2 t, ?_⟩
  rw [mem_block2]
  intro a
  match a with
  | ⟨0, _⟩ =>
    show win2_2.index t (0 : Fin 2) * 5000 ≤ (i 0).val ∧ (i 0).val < win2_2.index t (0 : Fin 2) * 5000 + 5000
    rw [e4, ht]; omega
  | ⟨1, _⟩ =>
    show win2_2.index t (1 : Fin 2) * 128 ≤ (i 1).val ∧ (i 1).val < win2_2.index t (1 : Fin 2) * 128 + 128
    rw [e5]; omega

/-- After the last point the output array is the whole product of the rows' array and the weight. -/
theorem final2 (c : Dev nD) :
    (dat2 (F := Ideal) V c).arrAt 2 cfg2.N = Cert.Gcn.dense128 (V c main_v42) (V c main_arg9) :=
  (dat2 (F := Ideal) V c).arrAt_eq_of_cover 2 (Cert.Gcn.dense128 (V c main_v42) (V c main_arg9))
    (fun t _ => flushed2_eq V c t) covered2

end Cert.KernelIdeal.RegionValue

end
-- ==== Proof.Dense4.lean ====
/-
  Region 4: hidden features [100000, 128] times a [128, 128] weight, 5000 rows at a time.

  Each of the 20 grid points multiplies one block of 5000 rows by the whole weight into a zero accumulator and writes the
  product back as the same 5000 rows of the output.  Entry (p, q) of the block at point t is ∑ k, h(5000·t + p, k) · w(k, q),
  which is entry (5000·t + p, q) of the product of the whole arrays; the 20 blocks tile the 100000 rows.
-/
import proofs.«152409_j70626442215629_1_alg».proof.Proof.Spec
import proofs.«152409_j70626442215629_1_alg».proof.Proof.Gen.KernelIdeal.Frame
import proofs.«152409_j70626442215629_1_alg».proof.Proof.LibRowOps
import proofs.«152409_j70626442215629_1_alg».proof.Proof.LibHostRowOps
import Idealize.ShloMosaic.Lib.ValueIdx
import Idealize.ShloMosaic.Lib.Pipeline.Value

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

theorem zeroOffsets4 : (![0, 0] : Fin 2 → Nat) = fun _ => 0 :=
  funext fun a => by
    match a with
    | ⟨0, _⟩ => rfl
    | ⟨1, _⟩ => rfl

/-! ## One entry of the block product and of the whole product -/

/-- The block's product at (p, q): the sum over the 128 shared coordinates. -/
theorem blockRows4_apply (x : FVec Ideal S5000x128 .f32) (w : FVec Ideal S128x128 .f32) (p : Fin 5000) (q : Fin 128) :
    k4_pay1 x w (ix2 p q) = ∑ k : Fin 128, x (ix2 p k) * w (ix2 k q) := by
  unfold k4_pay1
  rw [shapeCast_self]
  exact Cert.RowOps.matmul_zero_apply ⟨rfl, rfl, rfl, rfl, rfl, rfl⟩ none _ _ p q

/-- The whole product at (r, q): the same sum over the 128 shared coordinates. -/
theorem wholeRows4_apply (X : FVec Ideal S100000x128 .f32) (W : FVec Ideal S128x128 .f32) (r : Fin 100000) (q : Fin 128) :
    Cert.Gcn.dense128 X W (ix2 r q) = ∑ k : Fin 128, X (ix2 r k) * W (ix2 k q) := by
  unfold Cert.Gcn.dense128
  exact Cert.HostRowOps.dot_apply ⟨rfl, rfl, rfl, rfl, rfl, rfl⟩ none X W r q

/-- A block of 5000 rows starting at row 5000·t, multiplied by the same weight, is those rows of the whole product:
    entry j of the block product is entry i of the whole product when i is j moved down by 5000·t rows. -/
theorem point4 (X : FVec Ideal S100000x128 .f32) (W : FVec Ideal S128x128 .f32)
    (x : FVec Ideal S5000x128 .f32) (w : FVec Ideal S128x128 .f32) (t : Nat)
    (hx : ∀ (p : Fin 5000) (k : Fin 128) (r : Fin 100000), r.val = 5000 * t + p.val → x (ix2 p k) = X (ix2 r k))
    (hw : ∀ (k : Fin 128) (q : Fin 128), w (ix2 k q) = W (ix2 k q))
    (j : S5000x128.Idx) (i : S100000x128.Idx) (h0 : (i 0).val = 5000 * t + (j 0).val) (h1 : (i 1).val = (j 1).val) :
    k4_pay1 x w j = Cert.Gcn.dense128 X W i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  have hr : r.val = 5000 * t + p.val := h0
  rw [blockRows4_apply, wholeRows4_apply]
  exact Finset.sum_congr rfl fun k _ => by rw [hx p k r hr, hw k q']

/-! ## The windows' blocks as rows of the arrays -/

/-- The printed index maps over the grid: the rows' window and the output's window are at block (t, 0), the weight's
    window at block (0, 0). -/
theorem blockIndex4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row p of the rows' block at point t is row 5000·t + p of the array. -/
theorem rows4_apply (c : Dev nD) (t : Fin cfg4.N) (p : Fin 5000) (k : Fin 128) (r : Fin 100000)
    (hr : r.val = 5000 * t.val + p.val) :
    (iblk4 V c 0 t : FVec Ideal S5000x128 .f32) (ix2 p k) = (V c main_v57 : FVec Ideal S100000x128 .f32) (ix2 r k) := by
  obtain ⟨e0, e1, -⟩ := blockIndex4 t
  show V c main_v57 (((cfg4.win 0).blk t).view.emb (ix2 p k)) = V c main_v57 (ix2 r k)
  refine congrArg (V c main_v57) (funext fun a => Fin.ext ?_)
  match a with
  | ⟨0, _⟩ => show win4_0.index t (0 : Fin 2) * 5000 + 1 * p.val = r.val; rw [e0, hr]; omega
  | ⟨1, _⟩ => show win4_0.index t (1 : Fin 2) * 128 + 1 * k.val = k.val; rw [e1]; omega

/-- The weight's block at every point is the weight. -/
theorem weight4_apply (c : Dev nD) (t : Fin cfg4.N) (k : Fin 128) (q : Fin 128) :
    (iblk4 V c 1 t : FVec Ideal S128x128 .f32) (ix2 k q) = (V c main_arg15 : FVec Ideal S128x128 .f32) (ix2 k q) := by
  obtain ⟨-, -, e2, e3, -⟩ := blockIndex4 t
  show V c main_arg15 (((cfg4.win 1).blk t).view.emb (ix2 k q)) = V c main_arg15 (ix2 k q)
  refine congrArg (V c main_arg15) (funext fun a => Fin.ext ?_)
  match a with
  | ⟨0, _⟩ => show win4_1.index t (0 : Fin 2) * 128 + 1 * k.val = k.val; rw [e2]; omega
  | ⟨1, _⟩ => show win4_1.index t (1 : Fin 2) * 128 + 1 * q.val = q.val; rw [e3]; omega

/-! ## What each point writes back, and the array after the last point -/

/-- Point t writes back block t of the whole product. -/
theorem flushed4_eq (c : Dev nD) (t : Fin cfg4.N) :
    (dat4 (F := Ideal) V c).flushed 2 t
      = ((cfg4.win 2).blk t).view.read (Elt Ideal) (Cert.Gcn.dense128 (V c main_v57) (V c main_arg15)) := by
  show (cfg4.win 2).cut (grid4.coords t) ((dat4 V c).after 2 t) = _
  rw [after4_2]
  unfold out4_2
  rw [View.canon_unit_zero zeroOffsets4]
  simp only [View.ld_unit_zero (S := S5000x128) zeroOffsets4, View.ld_unit_zero (S := S128x128) zeroOffsets4]
  obtain ⟨-, -, -, -, e4, e5⟩ := blockIndex4 t
  funext j
  show k4_pay1 (iblk4 V c 0 t) (iblk4 V c 1 t) j
    = Cert.Gcn.dense128 (V c main_v57) (V c main_arg15) (((cfg4.win 2).blk t).view.emb j)
  refine point4 (V c main_v57) (V c main_arg15) (iblk4 V c 0 t) (iblk4 V c 1 t) t.val
    (fun p k r hr => rows4_apply V c t p k r hr) (fun k q => weight4_apply V c t k q) j _ ?_ ?_
  · show win4_2.index t (0 : Fin 2) * 5000 + 1 * (j 0).val = 5000 * t.val + (j 0).val
    rw [e4]; omega
  · show win4_2.index t (1 : Fin 2) * 128 + 1 * (j 1).val = (j 1).val
    rw [e5]; omega

/-- An index of the array is in point t's block iff each coordinate is in the block's range on its axis. -/
theorem mem_block4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v58).slice (win4_2.rect t)).set ↔ _
  rw [View.set_slice_whole, Rect.mem_set_unit]
  exact Iff.rfl

/-- Row r of the array is in the block of point r / 5000. -/
theorem covered4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, show (i 0).val / 5000 < grid4.N by omega⟩, rfl⟩
  obtain ⟨-, -, -, -, e4, e5⟩ := blockIndex4 t
  refine ⟨t, flush4_2 t, ?_⟩
  rw [mem_block4]
  intro a
  match a with
  | ⟨0, _⟩ =>
    show win4_2.index t (0 : Fin 2) * 5000 ≤ (i 0).val ∧ (i 0).val < win4_2.index t (0 : Fin 2) * 5000 + 5000
    rw [e4, ht]; omega
  | ⟨1, _⟩ =>
    show win4_2.index t (1 : Fin 2) * 128 ≤ (i 1).val ∧ (i 1).val < win4_2.index t (1 : Fin 2) * 128 + 128
    rw [e5]; omega

/-- After the last point the output array is the whole product of the rows' array and the weight. -/
theorem final4 (c : Dev nD) :
    (dat4 (F := Ideal) V c).arrAt 2 cfg4.N = Cert.Gcn.dense128 (V c main_v57) (V c main_arg15) :=
  (dat4 (F := Ideal) V c).arrAt_eq_of_cover 2 (Cert.Gcn.dense128 (V c main_v57) (V c main_arg15))
    (fun t _ => flushed4_eq V c t) covered4

end Cert.KernelIdeal.RegionValue

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«152409_j70626442215629_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.NormEntry.lean ====
/-
  The entrywise half of one graph-convolution layer, read at one index, on the extended reals.

  The layer adds to the aggregated messages the node's own product scaled by its self-loop norm and a bias, normalises
  every column with fixed statistics and clips at zero.  At row r and column q this is

      max ((((agg + lin · s) + b) − mean) · rsqrt (var + ε) · scale + shift, 0),

  with agg, lin read at (r, q), the norm s at (r, 0), and the five length-n vectors at q.  Over one block of rows the
  vectors are viewed as one [1, n] row and repeated down the rows and the [a, 1] column is repeated along each row; over
  the whole array the same layouts are two broadcasts of a vector and one of the column.  Both spellings read, at
  (r, q), the same expression in the same order of operations: no algebraic law is used, only where each layout reads.
  The two float constants, ε and the zero the result is clipped at, stay the values of their words.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«152409_j70626442215629_1_alg».proof.Proof.LibRowOps
import proofs.«152409_j70626442215629_1_alg».proof.Proof.LibHostRowOps
import proofs.«152409_j70626442215629_1_alg».proof.Proof.LibDense

noncomputable section

namespace Cert.NormEntry

open Idealize.ShloMosaic Idealize.ShloMosaic.ValueIdx

/-- One entry of the layer's entrywise half, from the eight entries it depends on. -/
def entry (agg lin s b scale shift mean var : Ideal .f32) : Ideal .f32 :=
  max ((((agg + lin * s) + b) - mean) * Ideal.rsqrt (var + Ideal.ofBits .f32 0x3727C5AC#32) * scale + shift)
    (Ideal.ofBits .f32 0x00000000#32)

section Pointwise

variable {s : Shape} {φ : FTy}

/-- The reciprocal square root of a vector, at an index. -/
theorem rsqrt_apply (x : FVec Ideal s φ) (i : s.Idx) : rsqrt x i = Ideal.rsqrt (x i) := rfl

/-- The host's reciprocal square root of an array, at an index: the same function. -/
theorem hostRsqrt_apply (x : FVec Ideal s φ) (i : s.Idx) : Host.rsqrt x i = Ideal.rsqrt (x i) := rfl

/-- A splat float constant, at an index: the value of its word. -/
theorem splat_apply (w : BitVec φ.bits) (i : s.Idx) :
    broadcast s (Scalar.ofBits (F := Ideal) φ w) i = Ideal.ofBits φ w := rfl

end Pointwise

variable {a n : Nat}

/-- Over one block of rows: the vectors viewed as one row and repeated down the rows, the column repeated along each row. -/
theorem block_apply (agg lin : FVec Ideal ⟨2, ![a, n]⟩ .f32) (s : FVec Ideal ⟨2, ![a, 1]⟩ .f32)
    (b scale shift mean var : FVec Ideal ⟨1, ![n]⟩ .f32)
    (hs : (⟨1, ![n]⟩ : Shape).ShapeCasts ⟨2, ![1, n]⟩) (hb : (⟨2, ![1, n]⟩ : Shape).Broadcasts ⟨2, ![a, n]⟩)
    (hc : (⟨2, ![a, 1]⟩ : Shape).Broadcasts ⟨2, ![a, n]⟩) (p : Fin a) (q : Fin n) :
    maximumf
        (addf
          (mulf
            (mulf
              (subf
                (addf (addf agg (mulf lin (broadcastTo ⟨2, ![a, n]⟩ s hc)))
                  (broadcastTo ⟨2, ![a, n]⟩ (shapeCast ⟨2, ![1, n]⟩ b hs) hb))
                (broadcastTo ⟨2, ![a, n]⟩ (shapeCast ⟨2, ![1, n]⟩ mean hs) hb))
              (broadcastTo ⟨2, ![a, n]⟩
                (shapeCast ⟨2, ![1, n]⟩
                  (rsqrt (addf var (broadcast ⟨1, ![n]⟩ (Scalar.ofBits (F := Ideal) .f32 0x3727C5AC#32)))) hs) hb))
            (broadcastTo ⟨2, ![a, n]⟩ (shapeCast ⟨2, ![1, n]⟩ scale hs) hb))
          (broadcastTo ⟨2, ![a, n]⟩ (shapeCast ⟨2, ![1, n]⟩ shift hs) hb))
        (broadcast ⟨2, ![a, n]⟩ (Scalar.ofBits (F := Ideal) .f32 0x00000000#32)) (ix2 p q)
      = entry (agg (ix2 p q)) (lin (ix2 p q)) (s (ix2 p (0 : Fin 1))) (b (ix1 q)) (scale (ix1 q)) (shift (ix1 q))
          (mean (ix1 q)) (var (ix1 q)) := by
  simp only [maximumf_apply, addf_apply, mulf_apply, subf_apply, Cert.RowOps.spread_apply, Cert.Dense.rowBias_apply,
    rsqrt_apply, splat_apply]
  rfl

/-- Over the whole array: each vector broadcast to a [1, n] row and then to every row, the column broadcast along each row. -/
theorem host_apply (agg lin : FVec Ideal ⟨2, ![a, n]⟩ .f32) (s : FVec Ideal ⟨2, ![a, 1]⟩ .f32)
    (b scale shift mean var : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (hc : (⟨2, ![a, 1]⟩ : Shape).BroadcastsInDim ⟨2, ![a, n]⟩ ![0, 1])
    (he : (⟨0, ![]⟩ : Shape).BroadcastsInDim ⟨1, ![n]⟩ ![])
    (h0 : (⟨0, ![]⟩ : Shape).BroadcastsInDim ⟨2, ![a, n]⟩ ![]) (r : Fin a) (q : Fin n) :
    maximumf
        (addf
          (mulf
            (mulf
              (subf
                (addf (addf agg (mulf lin (broadcastInDim ⟨2, ![a, n]⟩ ![0, 1] hc s)))
                  (broadcastInDim ⟨2, ![a, n]⟩ ![0, 1] h2 (broadcastInDim ⟨2, ![1, n]⟩ ![1] h1 b)))
                (broadcastInDim ⟨2, ![a, n]⟩ ![0, 1] h2 (broadcastInDim ⟨2, ![1, n]⟩ ![1] h1 mean)))
              (broadcastInDim ⟨2, ![a, n]⟩ ![0, 1] h2
                (broadcastInDim ⟨2, ![1, n]⟩ ![1] h1
                  (Host.rsqrt
                    (addf var (broadcastInDim ⟨1, ![n]⟩ ![] he (constant (F := Ideal) ⟨0, ![]⟩ .f32 0x3727C5AC#32)))))))
            (broadcastInDim ⟨2, ![a, n]⟩ ![0, 1] h2 (broadcastInDim ⟨2, ![1, n]⟩ ![1] h1 scale)))
          (broadcastInDim ⟨2, ![a, n]⟩ ![0, 1] h2 (broadcastInDim ⟨2, ![1, n]⟩ ![1] h1 shift)))
        (broadcastInDim ⟨2, ![a, n]⟩ ![] h0 (constant (F := Ideal) ⟨0, ![]⟩ .f32 0x00000000#32)) (ix2 r q)
      = entry (agg (ix2 r q)) (lin (ix2 r q)) (s (ix2 r (0 : Fin 1))) (b (ix1 q)) (scale (ix1 q)) (shift (ix1 q))
          (mean (ix1 q)) (var (ix1 q)) := by
  rw [maximumf_apply, addf_apply, mulf_apply, mulf_apply, subf_apply, addf_apply, addf_apply, mulf_apply]
  rw [Cert.HostRowOps.colToMat_apply]
  rw [Cert.Dense.hostRowBias_apply, Cert.Dense.hostRowBias_apply, Cert.Dense.hostRowBias_apply,
    Cert.Dense.hostRowBias_apply, Cert.Dense.hostRowBias_apply]
  rw [hostRsqrt_apply, addf_apply, broadcastInDim_scalar_apply, broadcastInDim_scalar_apply, constant_apply,
    constant_apply]
  rfl

end Cert.NormEntry

end
-- ==== Proof.NormBlocks1.lean ====
/-
  Region 1 (one of the three entrywise stages): from what each grid point writes back to the whole output array.

  The stage runs over 20 grid points.  At point t the two [100000, 128] inputs and the [100000, 1] column are read through
  the block of rows 5000·t … 5000·t + 4999, the five length-128 vectors are read whole, and the [5000, 128] result is
  written back to the same rows of the output array.  So row p of block t is row 5000·t + p of the array, the 20 blocks
  tile the 100000 rows (row r lies in block r / 5000), and once every point's result is known entry by entry as a
  function G of the array index, the output array after the stage is G.
-/
import proofs.«152409_j70626442215629_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The zero offsets of a whole-buffer access of a two-axis buffer. -/
theorem zeroOffsets2_1 : (![0, 0] : Fin 2 → Nat) = fun _ => 0 := funext fun a => by fin_cases a <;> rfl

/-- The zero offset of a whole-buffer access of a one-axis buffer. -/
theorem zeroOffsets1_1 : (![0] : Fin 1 → Nat) = fun _ => 0 := funext fun a => by fin_cases a; rfl

/-- The block indices at grid point t, decided over the 20 points: the row-blocked windows (the two inputs, the column,
    the output) are at block (t, 0); the five vectors are at block 0. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0 ∧ win1_4.index t (0 : Fin 1) = 0 ∧ win1_5.index t (0 : Fin 1) = 0
    ∧ win1_6.index t (0 : Fin 1) = 0 ∧ win1_7.index t (0 : Fin 1) = 0
    ∧ win1_8.index t (0 : Fin 2) = t.val ∧ win1_8.index t (1 : Fin 2) = 0 :=
  (by decide +kernel : ∀ t : Fin grid1.N, _)

/-- Row p of block t is row 5000·t + p of the array. -/
def row1 (t : Fin cfg1.N) (p : Fin 5000) : Fin 100000 :=
  ⟨t.val * 5000 + p.val, by have ht := t.isLt; have hN : cfg1.N = 20 := N_1; have hp := p.isLt; omega⟩

theorem row1_val (t : Fin cfg1.N) (p : Fin 5000) : (row1 t p).val = t.val * 5000 + p.val := rfl

/-! ## Each window's block at point t, entry by entry -/

/-- The first [100000, 128] input's block: entry (p, q) is the array's entry (5000·t + p, q). -/
theorem read1_0 (c : Dev nD) (t : Fin cfg1.N) (p : Fin 5000) (q : Fin 128) :
    iblk1 V c 0 t (ix2 p q) = V c main_v41 (ix2 (row1 t p) q) := by
  obtain ⟨e0, e1, -⟩ := blockIndex1 t
  show V c main_v41 (((cfg1.win 0).blk t).view.emb (ix2 p q)) = V c main_v41 (ix2 (row1 t p) q)
  refine congrArg (V c main_v41) (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * q.val = q.val; omega

/-- The second [100000, 128] input's block, likewise. -/
theorem read1_1 (c : Dev nD) (t : Fin cfg1.N) (p : Fin 5000) (q : Fin 128) :
    iblk1 V c 1 t (ix2 p q) = V c main_v28 (ix2 (row1 t p) q) := by
  obtain ⟨-, -, e0, e1, -⟩ := blockIndex1 t
  show V c main_v28 (((cfg1.win 1).blk t).view.emb (ix2 p q)) = V c main_v28 (ix2 (row1 t p) q)
  refine congrArg (V c main_v28) (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * q.val = q.val; omega

/-- The [100000, 1] column's block: entry (p, 0) is the column's entry (5000·t + p, 0). -/
theorem read1_2 (c : Dev nD) (t : Fin cfg1.N) (p : Fin 5000) :
    iblk1 V c 2 t (ix2 p (0 : Fin 1)) = V c main_v27 (ix2 (row1 t p) (0 : Fin 1)) := by
  obtain ⟨-, -, -, -, e0, e1, -⟩ := blockIndex1 t
  show V c main_v27 (((cfg1.win 2).blk t).view.emb (ix2 p (0 : Fin 1))) = V c main_v27 (ix2 (row1 t p) (0 : Fin 1))
  refine congrArg (V c main_v27) (funext fun a => Fin.ext ?_)
  match a with
  | ⟨0, _⟩ => show win1_2.index t (0 : Fin 2) * 5000 + 1 * p.val = t.val * 5000 + p.val; omega
  | ⟨1, _⟩ => show win1_2.index t (1 : Fin 2) * 1 + 1 * 0 = 0; omega

/-- Window 3, a length-128 vector read whole: entry q is the vector's entry q. -/
theorem read1_3 (c : Dev nD) (t : Fin cfg1.N) (q : Fin 128) :
    iblk1 V c 3 t (ix1 q) = V c main_arg4 (ix1 q) := by
  obtain ⟨-, -, -, -, -, -, e3, e4, e5, e6, e7, -⟩ := blockIndex1 t
  show V c main_arg4 (((cfg1.win 3).blk t).view.emb (ix1 q)) = V c main_arg4 (ix1 q)
  refine congrArg (V c main_arg4) (funext fun a => Fin.ext ?_)
  match a with
  | ⟨0, _⟩ => show win1_3.index t (0 : Fin 1) * 128 + 1 * q.val = q.val; omega

/-- Window 4, a length-128 vector read whole: entry q is the vector's entry q. -/
theorem read1_4 (c : Dev nD) (t : Fin cfg1.N) (q : Fin 128) :
    iblk1 V c 4 t (ix1 q) = V c main_arg5 (ix1 q) := by
  obtain ⟨-, -, -, -, -, -, e3, e4, e5, e6, e7, -⟩ := blockIndex1 t
  show V c main_arg5 (((cfg1.win 4).blk t).view.emb (ix1 q)) = V c main_arg5 (ix1 q)
  refine congrArg (V c main_arg5) (funext fun a => Fin.ext ?_)
  match a with
  | ⟨0, _⟩ => show win1_4.index t (0 : Fin 1) * 128 + 1 * q.val = q.val; omega

/-- Window 5, a length-128 vector read whole: entry q is the vector's entry q. -/
theorem read1_5 (c : Dev nD) (t : Fin cfg1.N) (q : Fin 128) :
    iblk1 V c 5 t (ix1 q) = V c main_arg6 (ix1 q) := by
  obtain ⟨-, -, -, -, -, -, e3, e4, e5, e6, e7, -⟩ := blockIndex1 t
  show V c main_arg6 (((cfg1.win 5).blk t).view.emb (ix1 q)) = V c main_arg6 (ix1 q)
  refine congrArg (V c main_arg6) (funext fun a => Fin.ext ?_)
  match a with
  | ⟨0, _⟩ => show win1_5.index t (0 : Fin 1) * 128 + 1 * q.val = q.val; omega

/-- Window 6, a length-128 vector read whole: entry q is the vector's entry q. -/
theorem read1_6 (c : Dev nD) (t : Fin cfg1.N) (q : Fin 128) :
    iblk1 V c 6 t (ix1 q) = V c main_arg7 (ix1 q) := by
  obtain ⟨-, -, -, -, -, -, e3, e4, e5, e6, e7, -⟩ := blockIndex1 t
  show V c main_arg7 (((cfg1.win 6).blk t).view.emb (ix1 q)) = V c main_arg7 (ix1 q)
  refine congrArg (V c main_arg7) (funext fun a => Fin.ext ?_)
  match a with
  | ⟨0, _⟩ => show win1_6.index t (0 : Fin 1) * 128 + 1 * q.val = q.val; omega

/-- Window 7, a length-128 vector read whole: entry q is the vector's entry q. -/
theorem read1_7 (c : Dev nD) (t : Fin cfg1.N) (q : Fin 128) :
    iblk1 V c 7 t (ix1 q) = V c main_arg8 (ix1 q) := by
  obtain ⟨-, -, -, -, -, -, e3, e4, e5, e6, e7, -⟩ := blockIndex1 t
  show V c main_arg8 (((cfg1.win 7).blk t).view.emb (ix1 q)) = V c main_arg8 (ix1 q)
  refine congrArg (V c main_arg8) (funext fun a => Fin.ext ?_)
  match a with
  | ⟨0, _⟩ => show win1_7.index t (0 : Fin 1) * 128 + 1 * q.val = q.val; omega

/-- A whole-array function read through the output's block at point t: entry (p, q) is its value at (5000·t + p, q). -/
theorem readOut1 (c : Dev nD) (G : Vec Ideal S100000x128 .f32) (t : Fin cfg1.N) (p : Fin 5000) (q : Fin 128) :
    ((cfg1.win 8).blk t).view.read (Elt Ideal) G (ix2 p q) = G (ix2 (row1 t p) q) := by
  obtain ⟨-, -, -, -, -, -, -, -, -, -, -, e0, e1⟩ := blockIndex1 t
  show G (((cfg1.win 8).blk t).view.emb (ix2 p q)) = G (ix2 (row1 t p) q)
  refine congrArg G (funext fun a => Fin.ext ?_)
  match a with
  | ⟨0, _⟩ => show win1_8.index t (0 : Fin 2) * 5000 + 1 * p.val = t.val * 5000 + p.val; omega
  | ⟨1, _⟩ => show win1_8.index t (1 : Fin 2) * 128 + 1 * q.val = q.val; omega

/-! ## What point t writes back, and the array after the stage -/

/-- If the body's result at point t agrees entry by entry with a whole-array function G at the block's rows, then what
    point t writes back is block t of G. -/
theorem flushed1_of (c : Dev nD) (G : Vec Ideal S100000x128 .f32)
    (hG : ∀ (t : Fin cfg1.N) (p : Fin 5000) (q : Fin 128),
      k1_pay1 (iblk1 V c 2 t) (iblk1 V c 0 t) (iblk1 V c 1 t) (iblk1 V c 3 t) (iblk1 V c 7 t) (iblk1 V c 6 t)
        (iblk1 V c 4 t) (iblk1 V c 5 t) (ix2 p q) = G (ix2 (row1 t p) q))
    (t : Fin cfg1.N) :
    (dat1 (F := Ideal) V c).flushed 8 t = ((cfg1.win 8).blk t).view.read (Elt Ideal) G := by
  show (cfg1.win 8).cut (grid1.coords t) ((dat1 V c).after 8 t) = _
  rw [after1_8]
  unfold out1_8
  rw [View.canon_unit_zero zeroOffsets2_1]
  simp only [View.ld_unit_zero (S := S5000x128) zeroOffsets2_1, View.ld_unit_zero (S := S5000x1) zeroOffsets2_1,
    View.ld_unit_zero (S := S128) zeroOffsets1_1]
  funext j
  obtain ⟨p, q, rfl⟩ : ∃ (p : Fin 5000) (q : Fin 128), j = ix2 p q := ⟨j 0, j 1, eq_ix2 j⟩
  exact (hG t p q).trans (readOut1 c G t p q).symm

/-- An index of the output array is in point t's block iff each coordinate is in the block's range on its axis. -/
theorem memBlock1 (t : Fin cfg1.N) (i : S100000x128.Idx) :
    i ∈ ((cfg1.win 8).blk t).view.set ↔ ∀ a : Fin 2, win1_8.index t a * S5000x128.size a ≤ (i a).val ∧ (i a).val < win1_8.index t a * S5000x128.size a + S5000x128.size a := by
  show i ∈ ((View.whole main_v42).slice (win1_8.rect t)).set ↔ _
  rw [View.set_slice_whole, Rect.mem_set_unit]
  exact Iff.rfl

/-- Every index of the output array is in the block of the point its row belongs to: row r lies in block r / 5000. -/
theorem covered1 (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 20 := N_1
  have ht : (i 0).val / 5000 < cfg1.N := by omega
  obtain ⟨-, -, -, -, -, -, -, -, -, -, -, e0, e1⟩ := blockIndex1 ⟨(i 0).val / 5000, ht⟩
  have e0' : win1_8.index ⟨(i 0).val / 5000, ht⟩ (0 : Fin 2) = (i 0).val / 5000 := e0
  refine ⟨⟨(i 0).val / 5000, ht⟩, flush1_8 _, ?_⟩
  rw [memBlock1]
  intro a
  match a with
  | ⟨0, _⟩ => show win1_8.index ⟨(i 0).val / 5000, ht⟩ (0 : Fin 2) * 5000 ≤ (i 0).val ∧ (i 0).val < win1_8.index ⟨(i 0).val / 5000, ht⟩ (0 : Fin 2) * 5000 + 5000; omega
  | ⟨1, _⟩ => show win1_8.index ⟨(i 0).val / 5000, ht⟩ (1 : Fin 2) * 128 ≤ (i 1).val ∧ (i 1).val < win1_8.index ⟨(i 0).val / 5000, ht⟩ (1 : Fin 2) * 128 + 128; omega

/-- The output array after the stage is G, whenever every point's result agrees with G entry by entry. -/
theorem arrayAfter1_of (c : Dev nD) (G : Vec Ideal S100000x128 .f32)
    (hG : ∀ (t : Fin cfg1.N) (p : Fin 5000) (q : Fin 128),
      k1_pay1 (iblk1 V c 2 t) (iblk1 V c 0 t) (iblk1 V c 1 t) (iblk1 V c 3 t) (iblk1 V c 7 t) (iblk1 V c 6 t)
        (iblk1 V c 4 t) (iblk1 V c 5 t) (ix2 p q) = G (ix2 (row1 t p) q)) :
    (dat1 (F := Ideal) V c).arrAt 8 cfg1.N = G :=
  (dat1 (F := Ideal) V c).arrAt_eq_of_cover 8 G (fun t _ => flushed1_of V c G hG t) covered1

end Cert.KernelIdeal.RegionValue

end
-- ==== Proof.Norm1.lean ====
/-
  Region 1: the output array of the entrywise stage is the layer's entrywise half of the arrays the stage reads.

  At grid point t the body computes, from the blocks of rows 5000·t … 5000·t + 4999 of the two [100000, 128] inputs and of
  the self-loop norm column and from the five length-128 vectors, the [5000, 128] block whose entry (p, q) is
  max ((((agg + lin · s) + b) − mean) · rsqrt (var + ε) · scale + shift, 0) at row 5000·t + p and column q.  The whole-array
  function normClip has the same entry at (5000·t + p, q), so each point writes back its block of normClip, and the
  20 blocks tile the array.
-/
import proofs.«152409_j70626442215629_1_alg».proof.Proof.Spec
import proofs.«152409_j70626442215629_1_alg».proof.Proof.Gen.KernelIdeal.Frame
import proofs.«152409_j70626442215629_1_alg».proof.Proof.NormEntry
import proofs.«152409_j70626442215629_1_alg».proof.Proof.NormBlocks1

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The body's result at entry (p, q), from the entries of its eight loaded blocks: the column, the two [5000, 128]
    blocks, then the bias, the variance, the mean, the scale and the shift. -/
theorem body1_apply (v0 : Vec Ideal S5000x1 .f32) (v4 v6 : Vec Ideal S5000x128 .f32)
    (v10 v14 v18 v25 v29 : Vec Ideal S128 .f32) (p : Fin 5000) (q : Fin 128) :
    k1_pay1 v0 v4 v6 v10 v14 v18 v25 v29 (ix2 p q)
      = Cert.NormEntry.entry (v4 (ix2 p q)) (v6 (ix2 p q)) (v0 (ix2 p (0 : Fin 1))) (v10 (ix1 q)) (v25 (ix1 q))
          (v29 (ix1 q)) (v18 (ix1 q)) (v14 (ix1 q)) := by
  unfold k1_pay1
  simp only [shapeCast_self]
  exact Cert.NormEntry.block_apply v4 v6 v0 v10 v25 v29 v18 v14 Cert.KernelIdeal.Facts₀.shapeCasts_S128_S1x128
    Cert.KernelIdeal.Facts₀.broadcasts_S1x128_S5000x128 Cert.KernelIdeal.Facts₀.broadcasts_S5000x1_S5000x128 p q

/-- The whole-array function at entry (r, q). -/
theorem normClip1_apply (agg lin : FVec Ideal Cert.ReferenceIdeal.S100000x128 .f32)
    (s : FVec Ideal Cert.ReferenceIdeal.S100000x1 .f32)
    (b scale shift mean var : FVec Ideal Cert.ReferenceIdeal.S128 .f32) (r : Fin 100000) (q : Fin 128) :
    Cert.Gcn.normClip agg lin s b scale shift mean var (ix2 r q)
      = Cert.NormEntry.entry (agg (ix2 r q)) (lin (ix2 r q)) (s (ix2 r (0 : Fin 1))) (b (ix1 q)) (scale (ix1 q))
          (shift (ix1 q)) (mean (ix1 q)) (var (ix1 q)) := by
  unfold Cert.Gcn.normClip Cert.Gcn.alongRows
  exact Cert.NormEntry.host_apply agg lin s b scale shift mean var Cert.ReferenceIdeal.Facts₀.bcast_S128_S1x128_1
    Cert.ReferenceIdeal.Facts₀.bcast_S1x128_S100000x128_0_1 Cert.ReferenceIdeal.Facts₀.bcast_S100000x1_S100000x128_0_1
    Cert.ReferenceIdeal.Facts₀.bcast_S_S128 Cert.ReferenceIdeal.Facts₀.bcast_S_S100000x128 r q

/-- The output array after the stage: normClip of the two inputs, the norm column and the five vectors as the stage
    finds them. -/
theorem final1 (c : Dev nD) :
    (dat1 (F := Ideal) V c).arrAt 8 cfg1.N
      = Cert.Gcn.normClip (V c main_v41) (V c main_v28) (V c main_v27) (V c main_arg4) (V c main_arg5) (V c main_arg6)
          (V c main_arg7) (V c main_arg8) :=
  arrayAfter1_of V c _ fun t p q => by
    refine (body1_apply _ _ _ _ _ _ _ _ p q).trans ?_
    refine Eq.trans ?_ (normClip1_apply _ _ _ _ _ _ _ _ (row1 t p) q).symm
    rw [read1_0 V c t p q, read1_1 V c t p q, read1_2 V c t p, read1_3 V c t q, read1_4 V c t q,
      read1_5 V c t q, read1_6 V c t q, read1_7 V c t q]

end Cert.KernelIdeal.RegionValue

end
-- ==== Proof.NormBlocks3.lean ====
/-
  Region 3 (one of the three entrywise stages): from what each grid point writes back to the whole output array.

  The stage runs over 20 grid points.  At point t the two [100000, 128] inputs and the [100000, 1] column are read through
  the block of rows 5000·t … 5000·t + 4999, the five length-128 vectors are read whole, and the [5000, 128] result is
  written back to the same rows of the output array.  So row p of block t is row 5000·t + p of the array, the 20 blocks
  tile the 100000 rows (row r lies in block r / 5000), and once every point's result is known entry by entry as a
  function G of the array index, the output array after the stage is G.
-/
import proofs.«152409_j70626442215629_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The zero offsets of a whole-buffer access of a two-axis buffer. -/
theorem zeroOffsets2_3 : (![0, 0] : Fin 2 → Nat) = fun _ => 0 := funext fun a => by fin_cases a <;> rfl

/-- The zero offset of a whole-buffer access of a one-axis buffer. -/
theorem zeroOffsets1_3 : (![0] : Fin 1 → Nat) = fun _ => 0 := funext fun a => by fin_cases a; rfl

/-- The block indices at grid point t, decided over the 20 points: the row-blocked windows (the two inputs, the column,
    the output) are at block (t, 0); the five vectors are at block 0. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0 ∧ win3_4.index t (0 : Fin 1) = 0 ∧ win3_5.index t (0 : Fin 1) = 0
    ∧ win3_6.index t (0 : Fin 1) = 0 ∧ win3_7.index t (0 : Fin 1) = 0
    ∧ win3_8.index t (0 : Fin 2) = t.val ∧ win3_8.index t (1 : Fin 2) = 0 :=
  (by decide +kernel : ∀ t : Fin grid3.N, _)

/-- Row p of block t is row 5000·t + p of the array. -/
def row3 (t : Fin cfg3.N) (p : Fin 5000) : Fin 100000 :=
  ⟨t.val * 5000 + p.val, by have ht := t.isLt; have hN : cfg3.N = 20 := N_3; have hp := p.isLt; omega⟩

theorem row3_val (t : Fin cfg3.N) (p : Fin 5000) : (row3 t p).val = t.val * 5000 + p.val := rfl

/-! ## Each window's block at point t, entry by entry -/

/-- The first [100000, 128] input's block: entry (p, q) is the array's entry (5000·t + p, q). -/
theorem read3_0 (c : Dev nD) (t : Fin cfg3.N) (p : Fin 5000) (q : Fin 128) :
    iblk3 V c 0 t (ix2 p q) = V c main_v56 (ix2 (row3 t p) q) := by
  obtain ⟨e0, e1, -⟩ := blockIndex3 t
  show V c main_v56 (((cfg3.win 0).blk t).view.emb (ix2 p q)) = V c main_v56 (ix2 (row3 t p) q)
  refine congrArg (V c main_v56) (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * q.val = q.val; omega

/-- The second [100000, 128] input's block, likewise. -/
theorem read3_1 (c : Dev nD) (t : Fin cfg3.N) (p : Fin 5000) (q : Fin 128) :
    iblk3 V c 1 t (ix2 p q) = V c main_v43 (ix2 (row3 t p) q) := by
  obtain ⟨-, -, e0, e1, -⟩ := blockIndex3 t
  show V c main_v43 (((cfg3.win 1).blk t).view.emb (ix2 p q)) = V c main_v43 (ix2 (row3 t p) q)
  refine congrArg (V c main_v43) (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * q.val = q.val; omega

/-- The [100000, 1] column's block: entry (p, 0) is the column's entry (5000·t + p, 0). -/
theorem read3_2 (c : Dev nD) (t : Fin cfg3.N) (p : Fin 5000) :
    iblk3 V c 2 t (ix2 p (0 : Fin 1)) = V c main_v27 (ix2 (row3 t p) (0 : Fin 1)) := by
  obtain ⟨-, -, -, -, e0, e1, -⟩ := blockIndex3 t
  show V c main_v27 (((cfg3.win 2).blk t).view.emb (ix2 p (0 : Fin 1))) = V c main_v27 (ix2 (row3 t p) (0 : Fin 1))
  refine congrArg (V c main_v27) (funext fun a => Fin.ext ?_)
  match a with
  | ⟨0, _⟩ => show win3_2.index t (0 : Fin 2) * 5000 + 1 * p.val = t.val * 5000 + p.val; omega
  | ⟨1, _⟩ => show win3_2.index t (1 : Fin 2) * 1 + 1 * 0 = 0; omega

/-- Window 3, a length-128 vector read whole: entry q is the vector's entry q. -/
theorem read3_3 (c : Dev nD) (t : Fin cfg3.N) (q : Fin 128) :
    iblk3 V c 3 t (ix1 q) = V c main_arg10 (ix1 q) := by
  obtain ⟨-, -, -, -, -, -, e3, e4, e5, e6, e7, -⟩ := blockIndex3 t
  show V c main_arg10 (((cfg3.win 3).blk t).view.emb (ix1 q)) = V c main_arg10 (ix1 q)
  refine congrArg (V c main_arg10) (funext fun a => Fin.ext ?_)
  match a with
  | ⟨0, _⟩ => show win3_3.index t (0 : Fin 1) * 128 + 1 * q.val = q.val; omega

/-- Window 4, a length-128 vector read whole: entry q is the vector's entry q. -/
theorem read3_4 (c : Dev nD) (t : Fin cfg3.N) (q : Fin 128) :
    iblk3 V c 4 t (ix1 q) = V c main_arg11 (ix1 q) := by
  obtain ⟨-, -, -, -, -, -, e3, e4, e5, e6, e7, -⟩ := blockIndex3 t
  show V c main_arg11 (((cfg3.win 4).blk t).view.emb (ix1 q)) = V c main_arg11 (ix1 q)
  refine congrArg (V c main_arg11) (funext fun a => Fin.ext ?_)
  match a with
  | ⟨0, _⟩ => show win3_4.index t (0 : Fin 1) * 128 + 1 * q.val = q.val; omega

/-- Window 5, a length-128 vector read whole: entry q is the vector's entry q. -/
theorem read3_5 (c : Dev nD) (t : Fin cfg3.N) (q : Fin 128) :
    iblk3 V c 5 t (ix1 q) = V c main_arg12 (ix1 q) := by
  obtain ⟨-, -, -, -, -, -, e3, e4, e5, e6, e7, -⟩ := blockIndex3 t
  show V c main_arg12 (((cfg3.win 5).blk t).view.emb (ix1 q)) = V c main_arg12 (ix1 q)
  refine congrArg (V c main_arg12) (funext fun a => Fin.ext ?_)
  match a with
  | ⟨0, _⟩ => show win3_5.index t (0 : Fin 1) * 128 + 1 * q.val = q.val; omega

/-- Window 6, a length-128 vector read whole: entry q is the vector's entry q. -/
theorem read3_6 (c : Dev nD) (t : Fin cfg3.N) (q : Fin 128) :
    iblk3 V c 6 t (ix1 q) = V c main_arg13 (ix1 q) := by
  obtain ⟨-, -, -, -, -, -, e3, e4, e5, e6, e7, -⟩ := blockIndex3 t
  show V c main_arg13 (((cfg3.win 6).blk t).view.emb (ix1 q)) = V c main_arg13 (ix1 q)
  refine congrArg (V c main_arg13) (funext fun a => Fin.ext ?_)
  match a with
  | ⟨0, _⟩ => show win3_6.index t (0 : Fin 1) * 128 + 1 * q.val = q.val; omega

/-- Window 7, a length-128 vector read whole: entry q is the vector's entry q. -/
theorem read3_7 (c : Dev nD) (t : Fin cfg3.N) (q : Fin 128) :
    iblk3 V c 7 t (ix1 q) = V c main_arg14 (ix1 q) := by
  obtain ⟨-, -, -, -, -, -, e3, e4, e5, e6, e7, -⟩ := blockIndex3 t
  show V c main_arg14 (((cfg3.win 7).blk t).view.emb (ix1 q)) = V c main_arg14 (ix1 q)
  refine congrArg (V c main_arg14) (funext fun a => Fin.ext ?_)
  match a with
  | ⟨0, _⟩ => show win3_7.index t (0 : Fin 1) * 128 + 1 * q.val = q.val; omega

/-- A whole-array function read through the output's block at point t: entry (p, q) is its value at (5000·t + p, q). -/
theorem readOut3 (c : Dev nD) (G : Vec Ideal S100000x128 .f32) (t : Fin cfg3.N) (p : Fin 5000) (q : Fin 128) :
    ((cfg3.win 8).blk t).view.read (Elt Ideal) G (ix2 p q) = G (ix2 (row3 t p) q) := by
  obtain ⟨-, -, -, -, -, -, -, -, -, -, -, e0, e1⟩ := blockIndex3 t
  show G (((cfg3.win 8).blk t).view.emb (ix2 p q)) = G (ix2 (row3 t p) q)
  refine congrArg G (funext fun a => Fin.ext ?_)
  match a with
  | ⟨0, _⟩ => show win3_8.index t (0 : Fin 2) * 5000 + 1 * p.val = t.val * 5000 + p.val; omega
  | ⟨1, _⟩ => show win3_8.index t (1 : Fin 2) * 128 + 1 * q.val = q.val; omega

/-! ## What point t writes back, and the array after the stage -/

/-- If the body's result at point t agrees entry by entry with a whole-array function G at the block's rows, then what
    point t writes back is block t of G. -/
theorem flushed3_of (c : Dev nD) (G : Vec Ideal S100000x128 .f32)
    (hG : ∀ (t : Fin cfg3.N) (p : Fin 5000) (q : Fin 128),
      k3_pay1 (iblk3 V c 2 t) (iblk3 V c 0 t) (iblk3 V c 1 t) (iblk3 V c 3 t) (iblk3 V c 7 t) (iblk3 V c 6 t)
        (iblk3 V c 4 t) (iblk3 V c 5 t) (ix2 p q) = G (ix2 (row3 t p) q))
    (t : Fin cfg3.N) :
    (dat3 (F := Ideal) V c).flushed 8 t = ((cfg3.win 8).blk t).view.read (Elt Ideal) G := by
  show (cfg3.win 8).cut (grid3.coords t) ((dat3 V c).after 8 t) = _
  rw [after3_8]
  unfold out3_8
  rw [View.canon_unit_zero zeroOffsets2_3]
  simp only [View.ld_unit_zero (S := S5000x128) zeroOffsets2_3, View.ld_unit_zero (S := S5000x1) zeroOffsets2_3,
    View.ld_unit_zero (S := S128) zeroOffsets1_3]
  funext j
  obtain ⟨p, q, rfl⟩ : ∃ (p : Fin 5000) (q : Fin 128), j = ix2 p q := ⟨j 0, j 1, eq_ix2 j⟩
  exact (hG t p q).trans (readOut3 c G t p q).symm

/-- An index of the output array is in point t's block iff each coordinate is in the block's range on its axis. -/
theorem memBlock3 (t : Fin cfg3.N) (i : S100000x128.Idx) :
    i ∈ ((cfg3.win 8).blk t).view.set ↔ ∀ a : Fin 2, win3_8.index t a * S5000x128.size a ≤ (i a).val ∧ (i a).val < win3_8.index t a * S5000x128.size a + S5000x128.size a := by
  show i ∈ ((View.whole main_v57).slice (win3_8.rect t)).set ↔ _
  rw [View.set_slice_whole, Rect.mem_set_unit]
  exact Iff.rfl

/-- Every index of the output array is in the block of the point its row belongs to: row r lies in block r / 5000. -/
theorem covered3 (i : S100000x128.Idx) :
    ∃ t : Fin cfg3.N, (cfg3.win 8).flush t = true ∧ i ∈ ((cfg3.win 8).blk t).view.set := by
  have hi0 : (i 0).val < 100000 := (i 0).isLt
  have hi1 : (i 1).val < 128 := (i 1).isLt
  have hN : cfg3.N = 20 := N_3
  have ht : (i 0).val / 5000 < cfg3.N := by omega
  obtain ⟨-, -, -, -, -, -, -, -, -, -, -, e0, e1⟩ := blockIndex3 ⟨(i 0).val / 5000, ht⟩
  have e0' : win3_8.index ⟨(i 0).val / 5000, ht⟩ (0 : Fin 2) = (i 0).val / 5000 := e0
  refine ⟨⟨(i 0).val / 5000, ht⟩, flush3_8 _, ?_⟩
  rw [memBlock3]
  intro a
  match a with
  | ⟨0, _⟩ => show win3_8.index ⟨(i 0).val / 5000, ht⟩ (0 : Fin 2) * 5000 ≤ (i 0).val ∧ (i 0).val < win3_8.index ⟨(i 0).val / 5000, ht⟩ (0 : Fin 2) * 5000 + 5000; omega
  | ⟨1, _⟩ => show win3_8.index ⟨(i 0).val / 5000, ht⟩ (1 : Fin 2) * 128 ≤ (i 1).val ∧ (i 1).val < win3_8.index ⟨(i 0).val / 5000, ht⟩ (1 : Fin 2) * 128 + 128; omega

/-- The output array after the stage is G, whenever every point's result agrees with G entry by entry. -/
theorem arrayAfter3_of (c : Dev nD) (G : Vec Ideal S100000x128 .f32)
    (hG : ∀ (t : Fin cfg3.N) (p : Fin 5000) (q : Fin 128),
      k3_pay1 (iblk3 V c 2 t) (iblk3 V c 0 t) (iblk3 V c 1 t) (iblk3 V c 3 t) (iblk3 V c 7 t) (iblk3 V c 6 t)
        (iblk3 V c 4 t) (iblk3 V c 5 t) (ix2 p q) = G (ix2 (row3 t p) q)) :
    (dat3 (F := Ideal) V c).arrAt 8 cfg3.N = G :=
  (dat3 (F := Ideal) V c).arrAt_eq_of_cover 8 G (fun t _ => flushed3_of V c G hG t) covered3

end Cert.KernelIdeal.RegionValue

end
-- ==== Proof.Norm3.lean ====
/-
  Region 3: the output array of the entrywise stage is the layer's entrywise half of the arrays the stage reads.

  At grid point t the body computes, from the blocks of rows 5000·t … 5000·t + 4999 of the two [100000, 128] inputs and of
  the self-loop norm column and from the five length-128 vectors, the [5000, 128] block whose entry (p, q) is
  max ((((agg + lin · s) + b) − mean) · rsqrt (var + ε) · scale + shift, 0) at row 5000·t + p and column q.  The whole-array
  function normClip has the same entry at (5000·t + p, q), so each point writes back its block of normClip, and the
  20 blocks tile the array.
-/
import proofs.«152409_j70626442215629_1_alg».proof.Proof.Spec
import proofs.«152409_j70626442215629_1_alg».proof.Proof.Gen.KernelIdeal.Frame
import proofs.«152409_j70626442215629_1_alg».proof.Proof.NormEntry
import proofs.«152409_j70626442215629_1_alg».proof.Proof.NormBlocks3

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The body's result at entry (p, q), from the entries of its eight loaded blocks: the column, the two [5000, 128]
    blocks, then the bias, the variance, the mean, the scale and the shift. -/
theorem body3_apply (v0 : Vec Ideal S5000x1 .f32) (v4 v6 : Vec Ideal S5000x128 .f32)
    (v10 v14 v18 v25 v29 : Vec Ideal S128 .f32) (p : Fin 5000) (q : Fin 128) :
    k3_pay1 v0 v4 v6 v10 v14 v18 v25 v29 (ix2 p q)
      = Cert.NormEntry.entry (v4 (ix2 p q)) (v6 (ix2 p q)) (v0 (ix2 p (0 : Fin 1))) (v10 (ix1 q)) (v25 (ix1 q))
          (v29 (ix1 q)) (v18 (ix1 q)) (v14 (ix1 q)) := by
  unfold k3_pay1
  simp only [shapeCast_self]
  exact Cert.NormEntry.block_apply v4 v6 v0 v10 v25 v29 v18 v14 Cert.KernelIdeal.Facts₀.shapeCasts_S128_S1x128
    Cert.KernelIdeal.Facts₀.broadcasts_S1x128_S5000x128 Cert.KernelIdeal.Facts₀.broadcasts_S5000x1_S5000x128 p q

/-- The whole-array function at entry (r, q). -/
theorem normClip3_apply (agg lin : FVec Ideal Cert.ReferenceIdeal.S100000x128 .f32)
    (s : FVec Ideal Cert.ReferenceIdeal.S100000x1 .f32)
    (b scale shift mean var : FVec Ideal Cert.ReferenceIdeal.S128 .f32) (r : Fin 100000) (q : Fin 128) :
    Cert.Gcn.normClip agg lin s b scale shift mean var (ix2 r q)
      = Cert.NormEntry.entry (agg (ix2 r q)) (lin (ix2 r q)) (s (ix2 r (0 : Fin 1))) (b (ix1 q)) (scale (ix1 q))
          (shift (ix1 q)) (mean (ix1 q)) (var (ix1 q)) := by
  unfold Cert.Gcn.normClip Cert.Gcn.alongRows
  exact Cert.NormEntry.host_apply agg lin s b scale shift mean var Cert.ReferenceIdeal.Facts₀.bcast_S128_S1x128_1
    Cert.ReferenceIdeal.Facts₀.bcast_S1x128_S100000x128_0_1 Cert.ReferenceIdeal.Facts₀.bcast_S100000x1_S100000x128_0_1
    Cert.ReferenceIdeal.Facts₀.bcast_S_S128 Cert.ReferenceIdeal.Facts₀.bcast_S_S100000x128 r q

/-- The output array after the stage: normClip of the two inputs, the norm column and the five vectors as the stage
    finds them. -/
theorem final3 (c : Dev nD) :
    (dat3 (F := Ideal) V c).arrAt 8 cfg3.N
      = Cert.Gcn.normClip (V c main_v56) (V c main_v43) (V c main_v27) (V c main_arg10) (V c main_arg11) (V c main_arg12)
          (V c main_arg13) (V c main_arg14) :=
  arrayAfter3_of V c _ fun t p q => by
    refine (body3_apply _ _ _ _ _ _ _ _ p q).trans ?_
    refine Eq.trans ?_ (normClip3_apply _ _ _ _ _ _ _ _ (row3 t p) q).symm
    rw [read3_0 V c t p q, read3_1 V c t p q, read3_2 V c t p, read3_3 V c t q, read3_4 V c t q,
      read3_5 V c t q, read3_6 V c t q, read3_7 V c t q]

end Cert.KernelIdeal.RegionValue

end
-- ==== Proof.NormBlocks5.lean ====
/-
  Region 5 (one of the three entrywise stages): from what each grid point writes back to the whole output array.

  The stage runs over 20 grid points.  At point t the two [100000, 128] inputs and the [100000, 1] column are read through
  the block of rows 5000·t … 5000·t + 4999, the five length-128 vectors are read whole, and the [5000, 128] result is
  written back to the same rows of the output array.  So row p of block t is row 5000·t + p of the array, the 20 blocks
  tile the 100000 rows (row r lies in block r / 5000), and once every point's result is known entry by entry as a
  function G of the array index, the output array after the stage is G.
-/
import proofs.«152409_j70626442215629_1_alg».proof.Proof.Gen.KernelIdeal.Frame
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The zero offsets of a whole-buffer access of a two-axis buffer. -/
theorem zeroOffsets2_5 : (![0, 0] : Fin 2 → Nat) = fun _ => 0 := funext fun a => by fin_cases a <;> rfl

/-- The zero offset of a whole-buffer access of a one-axis buffer. -/
theorem zeroOffsets1_5 : (![0] : Fin 1 → Nat) = fun _ => 0 := funext fun a => by fin_cases a; rfl

/-- The block indices at grid point t, decided over the 20 points: the row-blocked windows (the two inputs, the column,
    the output) are at block (t, 0); the five vectors are at block 0. -/
theorem blockIndex5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 1) = 0 ∧ win5_4.index t (0 : Fin 1) = 0 ∧ win5_5.index t (0 : Fin 1) = 0
    ∧ win5_6.index t (0 : Fin 1) = 0 ∧ win5_7.index t (0 : Fin 1) = 0
    ∧ win5_8.index t (0 : Fin 2) = t.val ∧ win5_8.index t (1 : Fin 2) = 0 :=
  (by decide +kernel : ∀ t : Fin grid5.N, _)

/-- Row p of block t is row 5000·t + p of the array. -/
def row5 (t : Fin cfg5.N) (p : Fin 5000) : Fin 100000 :=
  ⟨t.val * 5000 + p.val, by have ht := t.isLt; have hN : cfg5.N = 20 := N_5; have hp := p.isLt; omega⟩

theorem row5_val (t : Fin cfg5.N) (p : Fin 5000) : (row5 t p).val = t.val * 5000 + p.val := rfl

/-! ## Each window's block at point t, entry by entry -/

/-- The first [100000, 128] input's block: entry (p, q) is the array's entry (5000·t + p, q). -/
theorem read5_0 (c : Dev nD) (t : Fin cfg5.N) (p : Fin 5000) (q : Fin 128) :
    iblk5 V c 0 t (ix2 p q) = V c main_v71 (ix2 (row5 t p) q) := by
  obtain ⟨e0, e1, -⟩ := blockIndex5 t
  show V c main_v71 (((cfg5.win 0).blk t).view.emb (ix2 p q)) = V c main_v71 (ix2 (row5 t p) q)
  refine congrArg (V c main_v71) (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * q.val = q.val; omega

/-- The second [100000, 128] input's block, likewise. -/
theorem read5_1 (c : Dev nD) (t : Fin cfg5.N) (p : Fin 5000) (q : Fin 128) :
    iblk5 V c 1 t (ix2 p q) = V c main_v58 (ix2 (row5 t p) q) := by
  obtain ⟨-, -, e0, e1, -⟩ := blockIndex5 t
  show V c main_v58 (((cfg5.win 1).blk t).view.emb (ix2 p q)) = V c main_v58 (ix2 (row5 t p) q)
  refine congrArg (V c main_v58) (funext fun a => Fin.ext ?_)
  match a with
  | ⟨0, _⟩ => show win5_1.index t (0 : Fin 2) * 5000 + 1 * p.val = t.val * 5000 + p.val; omega
  | ⟨1, _⟩ => show win5_1.index t (1 : Fin 2) * 128 + 1 * q.val = q.val; omega

/-- The [100000, 1] column's block: entry (p, 0) is the column's entry (5000·t + p, 0). -/
theorem read5_2 (c : Dev nD) (t : Fin cfg5.N) (p : Fin 5000) :
    iblk5 V c 2 t (ix2 p (0 : Fin 1)) = V c main_v27 (ix2 (row5 t p) (0 : Fin 1)) := by
  obtain ⟨-, -, -, -, e0, e1, -⟩ := blockIndex5 t
  show V c main_v27 (((cfg5.win 2).blk t).view.emb (ix2 p (0 : Fin 1))) = V c main_v27 (ix2 (row5 t p) (0 : Fin 1))
  refine congrArg (V c main_v27) (funext fun a => Fin.ext ?_)
  match a with
  | ⟨0, _⟩ => show win5_2.index t (0 : Fin 2) * 5000 + 1 * p.val = t.val * 5000 + p.val; omega
  | ⟨1, _⟩ => show win5_2.index t (1 : Fin 2) * 1 + 1 * 0 = 0; omega

/-- Window 3, a length-128 vector read whole: entry q is the vector's entry q. -/
theorem read5_3 (c : Dev nD) (t : Fin cfg5.N) (q : Fin 128) :
    iblk5 V c 3 t (ix1 q) = V c main_arg16 (ix1 q) := by
  obtain ⟨-, -, -, -, -, -, e3, e4, e5, e6, e7, -⟩ := blockIndex5 t
  show V c main_arg16 (((cfg5.win 3).blk t).view.emb (ix1 q)) = V c main_arg16 (ix1 q)
  refine congrArg (V c main_arg16) (funext fun a => Fin.ext ?_)
  match a with
  | ⟨0, _⟩ => show win5_3.index t (0 : Fin 1) * 128 + 1 * q.val = q.val; omega

/-- Window 4, a length-128 vector read whole: entry q is the vector's entry q. -/
theorem read5_4 (c : Dev nD) (t : Fin cfg5.N) (q : Fin 128) :
    iblk5 V c 4 t (ix1 q) = V c main_arg17 (ix1 q) := by
  obtain ⟨-, -, -, -, -, -, e3, e4, e5, e6, e7, -⟩ := blockIndex5 t
  show V c main_arg17 (((cfg5.win 4).blk t).view.emb (ix1 q)) = V c main_arg17 (ix1 q)
  refine congrArg (V c main_arg17) (funext fun a => Fin.ext ?_)
  match a with
  | ⟨0, _⟩ => show win5_4.index t (0 : Fin 1) * 128 + 1 * q.val = q.val; omega

/-- Window 5, a length-128 vector read whole: entry q is the vector's entry q. -/
theorem read5_5 (c : Dev nD) (t : Fin cfg5.N) (q : Fin 128) :
    iblk5 V c 5 t (ix1 q) = V c main_arg18 (ix1 q) := by
  obtain ⟨-, -, -, -, -, -, e3, e4, e5, e6, e7, -⟩ := blockIndex5 t
  show V c main_arg18 (((cfg5.win 5).blk t).view.emb (ix1 q)) = V c main_arg18 (ix1 q)
  refine congrArg (V c main_arg18) (funext fun a => Fin.ext ?_)
  match a with
  | ⟨0, _⟩ => show win5_5.index t (0 : Fin 1) * 128 + 1 * q.val = q.val; omega

/-- Window 6, a length-128 vector read whole: entry q is the vector's entry q. -/
theorem read5_6 (c : Dev nD) (t : Fin cfg5.N) (q : Fin 128) :
    iblk5 V c 6 t (ix1 q) = V c main_arg19 (ix1 q) := by
  obtain ⟨-, -, -, -, -, -, e3, e4, e5, e6, e7, -⟩ := blockIndex5 t
  show V c main_arg19 (((cfg5.win 6).blk t).view.emb (ix1 q)) = V c main_arg19 (ix1 q)
  refine congrArg (V c main_arg19) (funext fun a => Fin.ext ?_)
  match a with
  | ⟨0, _⟩ => show win5_6.index t (0 : Fin 1) * 128 + 1 * q.val = q.val; omega

/-- Window 7, a length-128 vector read whole: entry q is the vector's entry q. -/
theorem read5_7 (c : Dev nD) (t : Fin cfg5.N) (q : Fin 128) :
    iblk5 V c 7 t (ix1 q) = V c main_arg20 (ix1 q) := by
  obtain ⟨-, -, -, -, -, -, e3, e4, e5, e6, e7, -⟩ := blockIndex5 t
  show V c main_arg20 (((cfg5.win 7).blk t).view.emb (ix1 q)) = V c main_arg20 (ix1 q)
  refine congrArg (V c main_arg20) (funext fun a => Fin.ext ?_)
  match a with
  | ⟨0, _⟩ => show win5_7.index t (0 : Fin 1) * 128 + 1 * q.val = q.val; omega

/-- A whole-array function read through the output's block at point t: entry (p, q) is its value at (5000·t + p, q). -/
theorem readOut5 (c : Dev nD) (G : Vec Ideal S100000x128 .f32) (t : Fin cfg5.N) (p : Fin 5000) (q : Fin 128) :
    ((cfg5.win 8).blk t).view.read (Elt Ideal) G (ix2 p q) = G (ix2 (row5 t p) q) := by
  obtain ⟨-, -, -, -, -, -, -, -, -, -, -, e0, e1⟩ := blockIndex5 t
  show G (((cfg5.win 8).blk t).view.emb (ix2 p q)) = G (ix2 (row5 t p) q)
  refine congrArg G (funext fun a => Fin.ext ?_)
  match a with
  | ⟨0, _⟩ => show win5_8.index t (0 : Fin 2) * 5000 + 1 * p.val = t.val * 5000 + p.val; omega
  | ⟨1, _⟩ => show win5_8.index t (1 : Fin 2) * 128 + 1 * q.val = q.val; omega

/-! ## What point t writes back, and the array after the stage -/

/-- If the body's result at point t agrees entry by entry with a whole-array function G at the block's rows, then what
    point t writes back is block t of G. -/
theorem flushed5_of (c : Dev nD) (G : Vec Ideal S100000x128 .f32)
    (hG : ∀ (t : Fin cfg5.N) (p : Fin 5000) (q : Fin 128),
      k5_pay1 (iblk5 V c 2 t) (iblk5 V c 0 t) (iblk5 V c 1 t) (iblk5 V c 3 t) (iblk5 V c 7 t) (iblk5 V c 6 t)
        (iblk5 V c 4 t) (iblk5 V c 5 t) (ix2 p q) = G (ix2 (row5 t p) q))
    (t : Fin cfg5.N) :
    (dat5 (F := Ideal) V c).flushed 8 t = ((cfg5.win 8).blk t).view.read (Elt Ideal) G := by
  show (cfg5.win 8).cut (grid5.coords t) ((dat5 V c).after 8 t) = _
  rw [after5_8]
  unfold out5_8
  rw [View.canon_unit_zero zeroOffsets2_5]
  simp only [View.ld_unit_zero (S := S5000x128) zeroOffsets2_5, View.ld_unit_zero (S := S5000x1) zeroOffsets2_5,
    View.ld_unit_zero (S := S128) zeroOffsets1_5]
  funext j
  obtain ⟨p, q, rfl⟩ : ∃ (p : Fin 5000) (q : Fin 128), j = ix2 p q := ⟨j 0, j 1, eq_ix2 j⟩
  exact (hG t p q).trans (readOut5 c G t p q).symm

/-- An index of the output array is in point t's block iff each coordinate is in the block's range on its axis. -/
theorem memBlock5 (t : Fin cfg5.N) (i : S100000x128.Idx) :
    i ∈ ((cfg5.win 8).blk t).view.set ↔ ∀ a : Fin 2, win5_8.index t a * S5000x128.size a ≤ (i a).val ∧ (i a).val < win5_8.index t a * S5000x128.size a + S5000x128.size a := by
  show i ∈ ((View.whole main_v72).slice (win5_8.rect t)).set ↔ _
  rw [View.set_slice_whole, Rect.mem_set_unit]
  exact Iff.rfl

/-- Every index of the output array is in the block of the point its row belongs to: row r lies in block r / 5000. -/
theorem covered5 (i : S100000x128.Idx) :
    ∃ t : Fin cfg5.N, (cfg5.win 8).flush t = true ∧ i ∈ ((cfg5.win 8).blk t).view.set := by
  have hi0 : (i 0).val < 100000 := (i 0).isLt
  have hi1 : (i 1).val < 128 := (i 1).isLt
  have hN : cfg5.N = 20 := N_5
  have ht : (i 0).val / 5000 < cfg5.N := by omega
  obtain ⟨-, -, -, -, -, -, -, -, -, -, -, e0, e1⟩ := blockIndex5 ⟨(i 0).val / 5000, ht⟩
  have e0' : win5_8.index ⟨(i 0).val / 5000, ht⟩ (0 : Fin 2) = (i 0).val / 5000 := e0
  refine ⟨⟨(i 0).val / 5000, ht⟩, flush5_8 _, ?_⟩
  rw [memBlock5]
  intro a
  match a with
  | ⟨0, _⟩ => show win5_8.index ⟨(i 0).val / 5000, ht⟩ (0 : Fin 2) * 5000 ≤ (i 0).val ∧ (i 0).val < win5_8.index ⟨(i 0).val / 5000, ht⟩ (0 : Fin 2) * 5000 + 5000; omega
  | ⟨1, _⟩ => show win5_8.index ⟨(i 0).val / 5000, ht⟩ (1 : Fin 2) * 128 ≤ (i 1).val ∧ (i 1).val < win5_8.index ⟨(i 0).val / 5000, ht⟩ (1 : Fin 2) * 128 + 128; omega

/-- The output array after the stage is G, whenever every point's result agrees with G entry by entry. -/
theorem arrayAfter5_of (c : Dev nD) (G : Vec Ideal S100000x128 .f32)
    (hG : ∀ (t : Fin cfg5.N) (p : Fin 5000) (q : Fin 128),
      k5_pay1 (iblk5 V c 2 t) (iblk5 V c 0 t) (iblk5 V c 1 t) (iblk5 V c 3 t) (iblk5 V c 7 t) (iblk5 V c 6 t)
        (iblk5 V c 4 t) (iblk5 V c 5 t) (ix2 p q) = G (ix2 (row5 t p) q)) :
    (dat5 (F := Ideal) V c).arrAt 8 cfg5.N = G :=
  (dat5 (F := Ideal) V c).arrAt_eq_of_cover 8 G (fun t _ => flushed5_of V c G hG t) covered5

end Cert.KernelIdeal.RegionValue

end
-- ==== Proof.Norm5.lean ====
/-
  Region 5: the output array of the entrywise stage is the layer's entrywise half of the arrays the stage reads.

  At grid point t the body computes, from the blocks of rows 5000·t … 5000·t + 4999 of the two [100000, 128] inputs and of
  the self-loop norm column and from the five length-128 vectors, the [5000, 128] block whose entry (p, q) is
  max ((((agg + lin · s) + b) − mean) · rsqrt (var + ε) · scale + shift, 0) at row 5000·t + p and column q.  The whole-array
  function normClip has the same entry at (5000·t + p, q), so each point writes back its block of normClip, and the
  20 blocks tile the array.
-/
import proofs.«152409_j70626442215629_1_alg».proof.Proof.Spec
import proofs.«152409_j70626442215629_1_alg».proof.Proof.Gen.KernelIdeal.Frame
import proofs.«152409_j70626442215629_1_alg».proof.Proof.NormEntry
import proofs.«152409_j70626442215629_1_alg».proof.Proof.NormBlocks5

set_option maxRecDepth 16384

noncomputable section

namespace Cert.KernelIdeal.RegionValue

open Idealize.ShloMosaic Idealize.ShloMosaic.TcCoe Idealize.ShloMosaic.ValueIdx Cert.KernelIdeal Cert.KernelIdeal.Gen

variable (V : (c : Dev nD) → (b : Ref sig .tc) → Buf (Elt Ideal) ((c : Thread nD τ).loc b))

/-- The body's result at entry (p, q), from the entries of its eight loaded blocks: the column, the two [5000, 128]
    blocks, then the bias, the variance, the mean, the scale and the shift. -/
theorem body5_apply (v0 : Vec Ideal S5000x1 .f32) (v4 v6 : Vec Ideal S5000x128 .f32)
    (v10 v14 v18 v25 v29 : Vec Ideal S128 .f32) (p : Fin 5000) (q : Fin 128) :
    k5_pay1 v0 v4 v6 v10 v14 v18 v25 v29 (ix2 p q)
      = Cert.NormEntry.entry (v4 (ix2 p q)) (v6 (ix2 p q)) (v0 (ix2 p (0 : Fin 1))) (v10 (ix1 q)) (v25 (ix1 q))
          (v29 (ix1 q)) (v18 (ix1 q)) (v14 (ix1 q)) := by
  unfold k5_pay1
  simp only [shapeCast_self]
  exact Cert.NormEntry.block_apply v4 v6 v0 v10 v25 v29 v18 v14 Cert.KernelIdeal.Facts₀.shapeCasts_S128_S1x128
    Cert.KernelIdeal.Facts₀.broadcasts_S1x128_S5000x128 Cert.KernelIdeal.Facts₀.broadcasts_S5000x1_S5000x128 p q

/-- The whole-array function at entry (r, q). -/
theorem normClip5_apply (agg lin : FVec Ideal Cert.ReferenceIdeal.S100000x128 .f32)
    (s : FVec Ideal Cert.ReferenceIdeal.S100000x1 .f32)
    (b scale shift mean var : FVec Ideal Cert.ReferenceIdeal.S128 .f32) (r : Fin 100000) (q : Fin 128) :
    Cert.Gcn.normClip agg lin s b scale shift mean var (ix2 r q)
      = Cert.NormEntry.entry (agg (ix2 r q)) (lin (ix2 r q)) (s (ix2 r (0 : Fin 1))) (b (ix1 q)) (scale (ix1 q))
          (shift (ix1 q)) (mean (ix1 q)) (var (ix1 q)) := by
  unfold Cert.Gcn.normClip Cert.Gcn.alongRows
  exact Cert.NormEntry.host_apply agg lin s b scale shift mean var Cert.ReferenceIdeal.Facts₀.bcast_S128_S1x128_1
    Cert.ReferenceIdeal.Facts₀.bcast_S1x128_S100000x128_0_1 Cert.ReferenceIdeal.Facts₀.bcast_S100000x1_S100000x128_0_1
    Cert.ReferenceIdeal.Facts₀.bcast_S_S128 Cert.ReferenceIdeal.Facts₀.bcast_S_S100000x128 r q

/-- The output array after the stage: normClip of the two inputs, the norm column and the five vectors as the stage
    finds them. -/
theorem final5 (c : Dev nD) :
    (dat5 (F := Ideal) V c).arrAt 8 cfg5.N
      = Cert.Gcn.normClip (V c main_v71) (V c main_v58) (V c main_v27) (V c main_arg16) (V c main_arg17) (V c main_arg18)
          (V c main_arg19) (V c main_arg20) :=
  arrayAfter5_of V c _ fun t p q => by
    refine (body5_apply _ _ _ _ _ _ _ _ p q).trans ?_
    refine Eq.trans ?_ (normClip5_apply _ _ _ _ _ _ _ _ (row5 t p) q).symm
    rw [read5_0 V c t p q, read5_1 V c t p q, read5_2 V c t p, read5_3 V c t q, read5_4 V c t q,
      read5_5 V c t q, read5_6 V c t q, read5_7 V c t q]

end Cert.KernelIdeal.RegionValue

end
-- ==== Proof.LibMlpRows.lean ====
/-
  The network's dense layers in two spellings, read at one index, on the extended reals.

  A two-layer perceptron sends a row x of an [M, K] array to  max(x·W₁ + b₁, 0)·W₂ + b₂ ; a graph layer's dense half
  sends it to x·W, or to max(x, 0)·W when the previous layer's clipping is fused into it.  Over one block of rows the
  products are matrix products into a zero accumulator, the biases are [1, n] rows repeated over the rows and the zero
  is a splat scalar; over whole arrays they are the host's contraction, broadcast and maximum.  Narrowing an operand to a
  shorter float format changes nothing on the extended reals.  Each lemma reads one spelling at (r, c); both spellings
  of a layer read the same expression, so a block of rows of the whole-array form is the block form of those rows.
  A length-n vector reshaped to a [1, n] row is also its broadcast to that row.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«152409_j70626442215629_1_alg».proof.Proof.LibRowOps
import proofs.«152409_j70626442215629_1_alg».proof.Proof.LibDense

noncomputable section

namespace Cert.Layers

open Idealize.ShloMosaic Idealize.ShloMosaic.ValueIdx Cert.RowOps Cert.Dense

/-! ## Rows -/

section Rows

variable {α : Type} {a n : Nat}

/-- A [1, n] row repeated over the rows of an [a, n] array by the host's broadcast reads, at (p, c), the row at (0, c). -/
theorem hostRow_apply (v : (⟨2, ![1, n]⟩ : Shape).Idx → α)
    (h : (⟨2, ![1, n]⟩ : Shape).BroadcastsInDim ⟨2, ![a, n]⟩ ![0, 1]) (p : Fin a) (c : Fin n) :
    broadcastInDim ⟨2, ![a, n]⟩ ![0, 1] h v (ix2 p c) = v (ix2 (0 : Fin 1) c) :=
  broadcastInDim_apply ![0, 1] h v (ix2 p c) (ix2 (0 : Fin 1) c) (fun ax => by
    match ax with
    | ⟨0, _⟩ => show (0 : Nat) = if (1 : Nat) = 1 then 0 else p.val; rw [if_pos rfl]
    | ⟨1, _⟩ =>
      show c.val = if n = 1 then 0 else c.val
      split
      · have := c.isLt; omega
      · rfl)

/-- A length-n vector reshaped to a [1, n] row is its broadcast to that row along the second axis. -/
theorem row_eq_broadcast (v : (⟨1, ![n]⟩ : Shape).Idx → α) (hs : (⟨1, ![n]⟩ : Shape).ShapeCasts ⟨2, ![1, n]⟩)
    (hb : (⟨1, ![n]⟩ : Shape).BroadcastsInDim ⟨2, ![1, n]⟩ ![1]) :
    shapeCast ⟨2, ![1, n]⟩ v hs = broadcastInDim ⟨2, ![1, n]⟩ ![1] hb v := by
  funext j
  obtain ⟨p, q, rfl⟩ : ∃ (p : Fin 1) (q : Fin n), j = ix2 p q := ⟨j 0, j 1, eq_ix2 j⟩
  have hp : p.val = 0 := by omega
  rw [shapeCast_apply v hs (ix2 p q) (ix1 q) (by
      rw [Shape.rowMajor_val_one, Shape.rowMajor_val_two]
      show q.val = p.val * n + q.val
      rw [hp]; omega)]
  exact (broadcastInDim_apply ![1] hb v (ix2 p q) (ix1 q) (fun ax => by
    match ax with
    | ⟨0, _⟩ =>
      show q.val = if n = 1 then 0 else q.val
      split
      · have := q.isLt; omega
      · rfl)).symm

end Rows

/-! ## A product of rows with a weight -/

section Product

variable {M K N : Nat} {d : DotDims ⟨2, ![M, K]⟩ ⟨2, ![K, N]⟩ ⟨2, ![M, N]⟩}

/-- Over one block, both operands narrowed first: the sum over the shared axis. -/
theorem blockProduct_apply (hd : IsPlain d) (x : FVec Ideal ⟨2, ![M, K]⟩ .f32) (w : FVec Ideal ⟨2, ![K, N]⟩ .f32)
    (ht : FTy.bf16.bits < FTy.f32.bits) (r : Fin M) (c : Fin N) :
    matmul d none (truncf .bf16 x ht) (truncf .bf16 w ht) (constant ⟨2, ![M, N]⟩ .f32 0x00000000#32) (ix2 r c)
      = ∑ k : Fin K, x (ix2 r k) * w (ix2 k c) :=
  matmul_zero_apply hd none (truncf .bf16 x ht) (truncf .bf16 w ht) r c

/-- Over one block, the rows clipped at zero first. -/
theorem blockClipProduct_apply (hd : IsPlain d) (x : FVec Ideal ⟨2, ![M, K]⟩ .f32) (w : FVec Ideal ⟨2, ![K, N]⟩ .f32)
    (hs : (⟨2, ![M, K]⟩ : Shape).ShapeCasts ⟨2, ![M, K]⟩)
    (ht : FTy.bf16.bits < FTy.f32.bits) (r : Fin M) (c : Fin N) :
    matmul d none (truncf .bf16 (maximumf (shapeCast ⟨2, ![M, K]⟩ x hs)
        (broadcast ⟨2, ![M, K]⟩ (Scalar.ofBits (F := Ideal) .f32 0x00000000#32))) ht) (truncf .bf16 w ht)
        (constant ⟨2, ![M, N]⟩ .f32 0x00000000#32) (ix2 r c)
      = ∑ k : Fin K, max (x (ix2 r k)) z * w (ix2 k c) := by
  rw [shapeCast_self]
  exact matmul_zero_apply hd none (truncf .bf16 (maximumf x
    (broadcast ⟨2, ![M, K]⟩ (Scalar.ofBits (F := Ideal) .f32 0x00000000#32))) ht) (truncf .bf16 w ht) r c

/-- Over whole arrays, the rows clipped at zero first. -/
theorem hostClipProduct_apply (hd : IsPlain d) (X : FVec Ideal ⟨2, ![M, K]⟩ .f32) (W : FVec Ideal ⟨2, ![K, N]⟩ .f32)
    (h0 : (⟨0, ![]⟩ : Shape).BroadcastsInDim ⟨2, ![M, K]⟩ ![]) (r : Fin M) (c : Fin N) :
    Host.dotGeneral d none (maximumf X
        (broadcastInDim ⟨2, ![M, K]⟩ ![] h0 (constant (F := Ideal) ⟨0, ![]⟩ .f32 0x00000000#32))) W (ix2 r c)
      = ∑ k : Fin K, max (X (ix2 r k)) z * W (ix2 k c) := by
  refine (hostDot_apply hd none .single _ W r c).trans (Finset.sum_congr rfl fun k _ => ?_)
  rw [maximumf_apply, broadcastInDim_scalar_apply, constant_apply]

end Product

/-! ## A two-layer perceptron -/

section Perceptron

variable {M K H N : Nat} {d1 : DotDims ⟨2, ![M, K]⟩ ⟨2, ![K, H]⟩ ⟨2, ![M, H]⟩}
  {d2 : DotDims ⟨2, ![M, H]⟩ ⟨2, ![H, N]⟩ ⟨2, ![M, N]⟩}

/-- The perceptron's value at (r, c), its biases given as rows. -/
def mlpAt (x : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) : EReal :=
  (∑ j : Fin H, max ((∑ k : Fin K, x (ix2 r k) * w1 (ix2 k j)) + b1 (ix2 (0 : Fin 1) j)) z * w2 (ix2 j c))
    + b2 (ix2 (0 : Fin 1) c)

/-- The hidden layer over one block, at (r, j). -/
theorem blockHidden_apply (hd1 : IsPlain d1) (x : FVec Ideal ⟨2, ![M, K]⟩ .f32) (w1 : FVec Ideal ⟨2, ![K, H]⟩ .f32)
    (b1 : FVec Ideal ⟨2, ![1, H]⟩ .f32) (hb1 : (⟨2, ![1, H]⟩ : Shape).Broadcasts ⟨2, ![M, H]⟩)
    (ht : FTy.bf16.bits < FTy.f32.bits) (r : Fin M) (j : Fin H) :
    maximumf (addf (matmul d1 none (truncf .bf16 x ht) (truncf .bf16 w1 ht) (constant ⟨2, ![M, H]⟩ .f32 0x00000000#32))
        (broadcastTo ⟨2, ![M, H]⟩ b1 hb1))
        (broadcast ⟨2, ![M, H]⟩ (Scalar.ofBits (F := Ideal) .f32 0x00000000#32)) (ix2 r j)
      = max ((∑ k : Fin K, x (ix2 r k) * w1 (ix2 k j)) + b1 (ix2 (0 : Fin 1) j)) z := by
  rw [maximumf_apply, addf_apply, broadcastTo_1b_ab_apply, broadcast_apply,
    blockProduct_apply hd1 x w1 ht r j]
  rfl

/-- The perceptron over one block of rows, at (r, c). -/
theorem blockMlp_apply (hd1 : IsPlain d1) (hd2 : IsPlain d2) (x : FVec Ideal ⟨2, ![M, K]⟩ .f32)
    (w1 : FVec Ideal ⟨2, ![K, H]⟩ .f32) (b1 : FVec Ideal ⟨2, ![1, H]⟩ .f32) (w2 : FVec Ideal ⟨2, ![H, N]⟩ .f32)
    (b2 : FVec Ideal ⟨2, ![1, N]⟩ .f32)
    (hs1 : (⟨2, ![1, H]⟩ : Shape).ShapeCasts ⟨2, ![1, H]⟩) (hb1 : (⟨2, ![1, H]⟩ : Shape).Broadcasts ⟨2, ![M, H]⟩)
    (hs2 : (⟨2, ![1, N]⟩ : Shape).ShapeCasts ⟨2, ![1, N]⟩) (hb2 : (⟨2, ![1, N]⟩ : Shape).Broadcasts ⟨2, ![M, N]⟩)
    (ht : FTy.bf16.bits < FTy.f32.bits) (r : Fin M) (c : Fin N) :
    addf (matmul d2 none (truncf .bf16 (maximumf (addf (matmul d1 none (truncf .bf16 x ht) (truncf .bf16 w1 ht)
          (constant ⟨2, ![M, H]⟩ .f32 0x00000000#32)) (broadcastTo ⟨2, ![M, H]⟩ (shapeCast ⟨2, ![1, H]⟩ b1 hs1) hb1))
          (broadcast ⟨2, ![M, H]⟩ (Scalar.ofBits (F := Ideal) .f32 0x00000000#32))) ht) (truncf .bf16 w2 ht)
          (constant ⟨2, ![M, N]⟩ .f32 0x00000000#32))
        (broadcastTo ⟨2, ![M, N]⟩ (shapeCast ⟨2, ![1, N]⟩ b2 hs2) hb2) (ix2 r c)
      = mlpAt x w1 b1 w2 b2 r c := by
  rw [shapeCast_self b1 hs1, shapeCast_self b2 hs2, addf_apply, broadcastTo_1b_ab_apply]
  unfold mlpAt
  refine congrArg (· + b2 (ix2 (0 : Fin 1) c)) ?_
  refine (matmul_zero_apply hd2 none _ (truncf .bf16 w2 ht) r c).trans (Finset.sum_congr rfl fun j _ => ?_)
  refine congrArg (· * w2 (ix2 j c)) ?_
  exact blockHidden_apply hd1 x w1 b1 hb1 ht r j

/-- The perceptron over whole arrays, at (r, c). -/
theorem hostMlp_apply (hd1 : IsPlain d1) (hd2 : IsPlain d2) (X : FVec Ideal ⟨2, ![M, K]⟩ .f32)
    (W1 : FVec Ideal ⟨2, ![K, H]⟩ .f32) (B1 : FVec Ideal ⟨2, ![1, H]⟩ .f32) (W2 : FVec Ideal ⟨2, ![H, N]⟩ .f32)
    (B2 : FVec Ideal ⟨2, ![1, N]⟩ .f32)
    (h2 : (⟨2, ![1, H]⟩ : Shape).BroadcastsInDim ⟨2, ![M, H]⟩ ![0, 1])
    (h0 : (⟨0, ![]⟩ : Shape).BroadcastsInDim ⟨2, ![M, H]⟩ ![])
    (g2 : (⟨2, ![1, N]⟩ : Shape).BroadcastsInDim ⟨2, ![M, N]⟩ ![0, 1]) (r : Fin M) (c : Fin N) :
    addf (Host.dotGeneral d2 none (maximumf (addf (Host.dotGeneral d1 none X W1)
          (broadcastInDim ⟨2, ![M, H]⟩ ![0, 1] h2 B1))
          (broadcastInDim ⟨2, ![M, H]⟩ ![] h0 (constant (F := Ideal) ⟨0, ![]⟩ .f32 0x00000000#32))) W2)
        (broadcastInDim ⟨2, ![M, N]⟩ ![0, 1] g2 B2) (ix2 r c)
      = mlpAt X W1 B1 W2 B2 r c := by
  rw [addf_apply, hostRow_apply]
  unfold mlpAt
  refine congrArg (· + B2 (ix2 (0 : Fin 1) c)) ?_
  refine (hostDot_apply hd2 none .single _ W2 r c).trans (Finset.sum_congr rfl fun j _ => ?_)
  refine congrArg (· * W2 (ix2 j c)) ?_
  rw [maximumf_apply, addf_apply, hostRow_apply, broadcastInDim_scalar_apply, constant_apply]
  exact congrArg (fun s => max (s + B1 (ix2 (0 : Fin 1) j)) z) (hostDot_apply hd1 none .single X W1 r j)

end Perceptron

end Cert.Layers

end
-- ==== Proof.ClassifyRows.lean ====
/-
  A two-layer perceptron whose biases are plain vectors, read at one index on the extended reals.

  The perceptron sends a row x of an [M, K] array to  max(x·W₁ + b₁, 0)·W₂ + b₂  with W₁ of shape [K, H], W₂ of shape
  [H, N] and the biases of lengths H and N.  Over one block of rows the two products are matrix products of operands
  narrowed to a shorter float format into a zero accumulator (narrowing changes nothing on the extended reals), each
  bias is viewed as one [1, n] row and repeated over the rows, and the zero is a splat scalar; the rows themselves may
  first pass through a reshape to their own shape.  Over whole arrays the products are the host's contraction, each
  bias is laid along a [1, n] row and then along every row, and the zero is a broadcast constant.  Both spellings read,
  at (r, c), the same expression  (∑ j, max((∑ k, x(r,k)·W₁(k,j)) + b₁(j), 0)·W₂(j,c)) + b₂(c).
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«152409_j70626442215629_1_alg».proof.Proof.LibRowOps
import proofs.«152409_j70626442215629_1_alg».proof.Proof.LibDense
import proofs.«152409_j70626442215629_1_alg».proof.Proof.LibMlpRows

noncomputable section

namespace Cert.ClassifyRows

open Idealize.ShloMosaic Idealize.ShloMosaic.ValueIdx Cert.RowOps Cert.Dense Cert.Layers

variable {M K H N : Nat} {d1 : DotDims ⟨2, ![M, K]⟩ ⟨2, ![K, H]⟩ ⟨2, ![M, H]⟩}
  {d2 : DotDims ⟨2, ![M, H]⟩ ⟨2, ![H, N]⟩ ⟨2, ![M, N]⟩}

/-- The perceptron's value at (r, c), its biases given as vectors. -/
def scoreAt (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32) (r : Fin M) (c : Fin N) : EReal :=
  (∑ j : Fin H, max ((∑ k : Fin K, x (ix2 r k) * w1 (ix2 k j)) + b1 (ix1 j)) z * w2 (ix2 j c)) + b2 (ix1 c)

/-- The hidden layer over one block, at (r, j): the rows reshaped to their own shape, both operands narrowed. -/
theorem blockHiddenVec_apply (hd1 : IsPlain d1) (x : FVec Ideal ⟨2, ![M, K]⟩ .f32) (w1 : FVec Ideal ⟨2, ![K, H]⟩ .f32)
    (b1 : FVec Ideal ⟨1, ![H]⟩ .f32)
    (hs0 : (⟨2, ![M, K]⟩ : Shape).ShapeCasts ⟨2, ![M, K]⟩)
    (hs1 : (⟨1, ![H]⟩ : Shape).ShapeCasts ⟨2, ![1, H]⟩) (hb1 : (⟨2, ![1, H]⟩ : Shape).Broadcasts ⟨2, ![M, H]⟩)
    (ht : FTy.bf16.bits < FTy.f32.bits) (r : Fin M) (j : Fin H) :
    maximumf (addf (matmul d1 none (truncf .bf16 (shapeCast ⟨2, ![M, K]⟩ x hs0) ht) (truncf .bf16 w1 ht)
          (constant ⟨2, ![M, H]⟩ .f32 0x00000000#32))
        (broadcastTo ⟨2, ![M, H]⟩ (shapeCast ⟨2, ![1, H]⟩ b1 hs1) hb1))
        (broadcast ⟨2, ![M, H]⟩ (Scalar.ofBits (F := Ideal) .f32 0x00000000#32)) (ix2 r j)
      = max ((∑ k : Fin K, x (ix2 r k) * w1 (ix2 k j)) + b1 (ix1 j)) z := by
  rw [shapeCast_self x hs0, maximumf_apply, addf_apply, rowBias_apply, broadcast_apply,
    blockProduct_apply hd1 x w1 ht r j]
  rfl

/-- The perceptron over one block of rows, at (r, c). -/
theorem blockScore_apply (hd1 : IsPlain d1) (hd2 : IsPlain d2) (x : FVec Ideal ⟨2, ![M, K]⟩ .f32)
    (w1 : FVec Ideal ⟨2, ![K, H]⟩ .f32) (b1 : FVec Ideal ⟨1, ![H]⟩ .f32) (w2 : FVec Ideal ⟨2, ![H, N]⟩ .f32)
    (b2 : FVec Ideal ⟨1, ![N]⟩ .f32)
    (hs0 : (⟨2, ![M, K]⟩ : Shape).ShapeCasts ⟨2, ![M, K]⟩)
    (hs1 : (⟨1, ![H]⟩ : Shape).ShapeCasts ⟨2, ![1, H]⟩) (hb1 : (⟨2, ![1, H]⟩ : Shape).Broadcasts ⟨2, ![M, H]⟩)
    (hs2 : (⟨1, ![N]⟩ : Shape).ShapeCasts ⟨2, ![1, N]⟩) (hb2 : (⟨2, ![1, N]⟩ : Shape).Broadcasts ⟨2, ![M, N]⟩)
    (ht : FTy.bf16.bits < FTy.f32.bits) (r : Fin M) (c : Fin N) :
    addf (matmul d2 none (truncf .bf16 (maximumf (addf (matmul d1 none (truncf .bf16 (shapeCast ⟨2, ![M, K]⟩ x hs0) ht)
          (truncf .bf16 w1 ht) (constant ⟨2, ![M, H]⟩ .f32 0x00000000#32))
          (broadcastTo ⟨2, ![M, H]⟩ (shapeCast ⟨2, ![1, H]⟩ b1 hs1) hb1))
          (broadcast ⟨2, ![M, H]⟩ (Scalar.ofBits (F := Ideal) .f32 0x00000000#32))) ht) (truncf .bf16 w2 ht)
          (constant ⟨2, ![M, N]⟩ .f32 0x00000000#32))
        (broadcastTo ⟨2, ![M, N]⟩ (shapeCast ⟨2, ![1, N]⟩ b2 hs2) hb2) (ix2 r c)
      = scoreAt x w1 b1 w2 b2 r c := by
  rw [addf_apply, rowBias_apply]
  unfold scoreAt
  refine congrArg (· + b2 (ix1 c)) ?_
  refine (matmul_zero_apply hd2 none _ (truncf .bf16 w2 ht) r c).trans (Finset.sum_congr rfl fun j _ => ?_)
  refine congrArg (· * w2 (ix2 j c)) ?_
  exact blockHiddenVec_apply hd1 x w1 b1 hs0 hs1 hb1 ht r j

/-- The perceptron over whole arrays, at (r, c). -/
theorem hostScore_apply (hd1 : IsPlain d1) (hd2 : IsPlain d2) (X : FVec Ideal ⟨2, ![M, K]⟩ .f32)
    (W1 : FVec Ideal ⟨2, ![K, H]⟩ .f32) (B1 : FVec Ideal ⟨1, ![H]⟩ .f32) (W2 : FVec Ideal ⟨2, ![H, N]⟩ .f32)
    (B2 : FVec Ideal ⟨1, ![N]⟩ .f32)
    (h1 : (⟨1, ![H]⟩ : Shape).BroadcastsInDim ⟨2, ![1, H]⟩ ![1])
    (h2 : (⟨2, ![1, H]⟩ : Shape).BroadcastsInDim ⟨2, ![M, H]⟩ ![0, 1])
    (h0 : (⟨0, ![]⟩ : Shape).BroadcastsInDim ⟨2, ![M, H]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d2 none (maximumf (addf (Host.dotGeneral d1 none X W1)
          (broadcastInDim ⟨2, ![M, H]⟩ ![0, 1] h2 (broadcastInDim ⟨2, ![1, H]⟩ ![1] h1 B1)))
          (broadcastInDim ⟨2, ![M, H]⟩ ![] h0 (constant (F := Ideal) ⟨0, ![]⟩ .f32 0x00000000#32))) W2)
        (broadcastInDim ⟨2, ![M, N]⟩ ![0, 1] g2 (broadcastInDim ⟨2, ![1, N]⟩ ![1] g1 B2)) (ix2 r c)
      = scoreAt X W1 B1 W2 B2 r c := by
  rw [hostDecode_apply hd2]
  unfold scoreAt
  refine congrArg (· + B2 (ix1 c)) (Finset.sum_congr rfl fun j _ => ?_)
  refine congrArg (fun s => max (s + B1 (ix1 j)) z * W2 (ix2 j c)) ?_
  exact hostDot_apply hd1 none .single X W1 r j

end Cert.ClassifyRows

end
-- ==== Proof.Classify6.lean ====
/-
  The classifier region: the class scores as one function of the pooled features and the four parameter arrays.

  The region's grid has one point and every window is its whole array, so the one block the body reads of each
  input is that array and the one block it writes back is the whole result.  The body computes, entry by entry,
  max(p·W₁ + b₁, 0)·W₂ + b₂ with the two products as sums over the shared axis; the whole-array classifier of the
  specification reads the same expression at every entry.  Hence the result array after the region is the
  specification's classifier of the arrays the region finds.
-/
import proofs.«152409_j70626442215629_1_alg».proof.Proof.Spec
import proofs.«152409_j70626442215629_1_alg».proof.Proof.Gen.KernelIdeal.Frame
import proofs.«152409_j70626442215629_1_alg».proof.Proof.ClassifyRows
import Idealize.ShloMosaic.Lib.Pipeline.Value

set_option maxRecDepth 16384

noncomputable section

namespace Cert.KernelIdeal.RegionValue

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-! ## The two products are plain, on both sides -/

theorem plain6Body1 : Cert.RowOps.IsPlain Cert.KernelIdeal.dot_S512x128_S128x64_S512x64_1_0_0_1_n_n :=
  ⟨rfl, rfl, rfl, rfl, rfl, rfl⟩
theorem plain6Body2 : Cert.RowOps.IsPlain Cert.KernelIdeal.dot_S512x64_S64x10_S512x10_1_0_0_1_n_n :=
  ⟨rfl, rfl, rfl, rfl, rfl, rfl⟩
theorem plain6Spec1 : Cert.RowOps.IsPlain Cert.ReferenceIdeal.dot_S512x128_S128x64_S512x64_1_0_0_1_n_n :=
  ⟨rfl, rfl, rfl, rfl, rfl, rfl⟩
theorem plain6Spec2 : Cert.RowOps.IsPlain Cert.ReferenceIdeal.dot_S512x64_S64x10_S512x10_1_0_0_1_n_n :=
  ⟨rfl, rfl, rfl, rfl, rfl, rfl⟩

/-! ## The body's arithmetic is the specification's classifier -/

/-- The body's payload at (p, q). -/
theorem body6_apply (x0 : Vec Ideal S512x128 .f32) (x1 : Vec Ideal S128x64 .f32) (x2 : Vec Ideal S64 .f32)
    (x3 : Vec Ideal S64x10 .f32) (x4 : Vec Ideal S10 .f32) (p : Fin 512) (q : Fin 10) :
    k6_pay1 x0 x1 x2 x3 x4 (ValueIdx.ix2 p q) = Cert.ClassifyRows.scoreAt x0 x1 x2 x3 x4 p q := by
  unfold k6_pay1
  exact Cert.ClassifyRows.blockScore_apply plain6Body1 plain6Body2 x0 x1 x2 x3 x4 _ _ _ _ _ _ p q

/-- The specification's classifier at (p, q). -/
theorem classify6_apply (x0 : Vec Ideal S512x128 .f32) (x1 : Vec Ideal S128x64 .f32) (x2 : Vec Ideal S64 .f32)
    (x3 : Vec Ideal S64x10 .f32) (x4 : Vec Ideal S10 .f32) (p : Fin 512) (q : Fin 10) :
    Cert.Gcn.classify x0 x1 x2 x3 x4 (ValueIdx.ix2 p q) = Cert.ClassifyRows.scoreAt x0 x1 x2 x3 x4 p q := by
  unfold Cert.Gcn.classify
  exact Cert.ClassifyRows.hostScore_apply plain6Spec1 plain6Spec2 x0 x1 x2 x3 x4 _ _ _ _ _ p q

/-- The body's payload is the classifier of what it loads. -/
theorem body6_eq (x0 : Vec Ideal S512x128 .f32) (x1 : Vec Ideal S128x64 .f32) (x2 : Vec Ideal S64 .f32)
    (x3 : Vec Ideal S64x10 .f32) (x4 : Vec Ideal S10 .f32) :
    k6_pay1 x0 x1 x2 x3 x4 = Cert.Gcn.classify x0 x1 x2 x3 x4 := by
  funext j
  obtain ⟨p, q, rfl⟩ : ∃ (p : Fin 512) (q : Fin 10), j = ValueIdx.ix2 p q := ⟨j 0, j 1, ValueIdx.eq_ix2 j⟩
  rw [body6_apply, classify6_apply]

theorem zeros6_2 : (![0, 0] : Fin 2 → Nat) = fun _ => 0 := funext fun a => by fin_cases a <;> rfl
theorem zeros6_1 : (![0] : Fin 1 → Nat) = fun _ => 0 := funext fun a => by fin_cases a; rfl

/-- What the body leaves in the result window's buffer is the classifier of the input windows' buffers: every load
    and the one store go through the whole buffer. -/
theorem out6_5_eq (x0 : Vec Ideal S512x128 .f32) (x1 : Vec Ideal S128x64 .f32) (x2 : Vec Ideal S64 .f32)
    (x3 : Vec Ideal S64x10 .f32) (x4 : Vec Ideal S10 .f32) :
    out6_5 x0 x1 x2 x3 x4 = Cert.Gcn.classify x0 x1 x2 x3 x4 := by
  unfold out6_5
  rw [View.canon_unit_zero zeros6_2]
  simp only [View.ld_unit_zero (S := S512x128) zeros6_2, View.ld_unit_zero (S := S128x64) zeros6_2,
    View.ld_unit_zero (S := S64x10) zeros6_2, View.ld_unit_zero (S := S64) zeros6_1, View.ld_unit_zero (S := S10) zeros6_1]
  exact body6_eq x0 x1 x2 x3 x4

/-! ## Every window's one block is its whole array -/

/-- The printed index maps, decided over the one grid point: every block offset is zero. -/
theorem offsets6 : ∀ t : Fin cfg6.N,
    (∀ a : Fin 2, win6_0.index t a * S512x128.size a = 0) ∧ (∀ a : Fin 2, win6_1.index t a * S128x64.size a = 0)
    ∧ (∀ a : Fin 1, win6_2.index t a * S64.size a = 0) ∧ (∀ a : Fin 2, win6_3.index t a * S64x10.size a = 0)
    ∧ (∀ a : Fin 1, win6_4.index t a * S10.size a = 0) ∧ (∀ a : Fin 2, win6_5.index t a * S512x10.size a = 0) :=
  (by decide +kernel : ∀ t : Fin grid6.N, _)

/-- The pooled features' block is the array the region finds. -/
theorem blk6_0 (c : Dev nD) (t : Fin cfg6.N) : iblk6 V c 0 t = V c main_v84 := by
  unfold iblk6
  have h : (fun a => win6_0.index t a * main_v84.ty.shape.size a) = fun _ => 0 := funext (offsets6 t).1
  exact Memref.read_access_unit_zero (Elt Ideal) main_v84 h (fun a => by rw [congrFun h a]; simp) (V c main_v84)

/-- The first weight's block is its array. -/
theorem blk6_1 (c : Dev nD) (t : Fin cfg6.N) : iblk6 V c 1 t = V c main_arg21 := by
  unfold iblk6
  have h : (fun a => win6_1.index t a * main_arg21.ty.shape.size a) = fun _ => 0 := funext (offsets6 t).2.1
  exact Memref.read_access_unit_zero (Elt Ideal) main_arg21 h (fun a => by rw [congrFun h a]; simp) (V c main_arg21)

/-- The first bias's block is its array. -/
theorem blk6_2 (c : Dev nD) (t : Fin cfg6.N) : iblk6 V c 2 t = V c main_arg22 := by
  unfold iblk6
  have h : (fun a => win6_2.index t a * main_arg22.ty.shape.size a) = fun _ => 0 := funext (offsets6 t).2.2.1
  exact Memref.read_access_unit_zero (Elt Ideal) main_arg22 h (fun a => by rw [congrFun h a]; simp) (V c main_arg22)

/-- The second weight's block is its array. -/
theorem blk6_3 (c : Dev nD) (t : Fin cfg6.N) : iblk6 V c 3 t = V c main_arg23 := by
  unfold iblk6
  have h : (fun a => win6_3.index t a * main_arg23.ty.shape.size a) = fun _ => 0 := funext (offsets6 t).2.2.2.1
  exact Memref.read_access_unit_zero (Elt Ideal) main_arg23 h (fun a => by rw [congrFun h a]; simp) (V c main_arg23)

/-- The second bias's block is its array. -/
theorem blk6_4 (c : Dev nD) (t : Fin cfg6.N) : iblk6 V c 4 t = V c main_arg24 := by
  unfold iblk6
  have h : (fun a => win6_4.index t a * main_arg24.ty.shape.size a) = fun _ => 0 := funext (offsets6 t).2.2.2.2.1
  exact Memref.read_access_unit_zero (Elt Ideal) main_arg24 h (fun a => by rw [congrFun h a]; simp) (V c main_arg24)

/-! ## The result array -/

/-- The class scores of the arrays the region finds. -/
abbrev scores6 (c : Dev nD) : Vec Ideal S512x10 .f32 :=
  Cert.Gcn.classify (V c main_v84) (V c main_arg21) (V c main_arg22) (V c main_arg23) (V c main_arg24)

/-- What the one point writes back is the (whole) block of the class scores. -/
theorem flushed6_eq (c : Dev nD) (t : Fin cfg6.N) :
    (dat6 (F := Ideal) V c).flushed 5 t = ((cfg6.win 5).blk t).view.read (Elt Ideal) (scores6 V c) := by
  show (cfg6.win 5).cut (grid6.coords t) ((dat6 V c).after 5 t) = _
  rw [after6_5, blk6_0 V c t, blk6_1 V c t, blk6_2 V c t, blk6_3 V c t, blk6_4 V c t, out6_5_eq]
  have h : (fun a => win6_5.index t a * main_v85.ty.shape.size a) = fun _ => 0 := funext (offsets6 t).2.2.2.2.2
  exact (Memref.read_access_unit_zero (Elt Ideal) main_v85 h (fun a => by rw [congrFun h a]; simp) (scores6 V c)).symm

/-- The one point's block covers the result array. -/
theorem cover6 (i : S512x10.Idx) :
    ∃ t : Fin cfg6.N, (cfg6.win 5).flush t = true ∧ i ∈ ((cfg6.win 5).blk t).view.set := by
  refine ⟨t6_0, flush6_5 t6_0, ?_⟩
  show i ∈ ((View.whole main_v85).slice (win6_5.rect t6_0)).set
  rw [View.set_slice_whole]
  have h : (fun a => win6_5.index t6_0 a * S512x10.size a) = fun _ => 0 := funext (offsets6 t6_0).2.2.2.2.2
  exact View.mem_set_unit_zero h _ i

/-- THE RESULT ARRAY after the region: the specification's classifier of the arrays the region finds. -/
theorem final6 (c : Dev nD) : (dat6 (F := Ideal) V c).arrAt 5 cfg6.N = Cert.Gcn.classify (V c main_v84) (V c main_arg21) (V c main_arg22) (V c main_arg23) (V c main_arg24) :=
  (dat6 V c).arrAt_eq_of_cover 5 (scores6 V c) (fun t _ => flushed6_eq V c t) cover6

end Cert.KernelIdeal.RegionValue

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Line.lean ====
/-
  The kernel program as one line of whole-array operations.

  The program alternates stretches of host operations with seven pipelined regions.  A region whose input arrays end as
  it found them and whose one output array ends at a function of those inputs rewrites the buffer contents exactly as
  one host operation with that function would.  Given, for each region, that its output array ends at the corresponding
  dense piece of the network (a product with a weight, the entrywise normalise-and-clip, the classifier), the contents at
  the program's last boundary are the fold of ONE line — the host stretches with each region's operation in its place —
  over the launch contents.
-/
import proofs.«152409_j70626442215629_1_alg».proof.Proof.Spec
import proofs.«152409_j70626442215629_1_alg».proof.Proof.Gen.KernelIdeal.Frame
import proofs.«152409_j70626442215629_1_alg».proof.Proof.LibRegionOp

set_option maxRecDepth 16384

noncomputable section

namespace Cert.KernelIdeal.Line

open Idealize.ShloMosaic Idealize.ShloMosaic.TcCoe Idealize.ShloMosaic.StableHlo
open Cert.KernelIdeal Cert.KernelIdeal.Gen

/-! ## Each region's operation -/

/-- Region 0: the node features times the first weight. -/
def op0 : HloOp τ sig (Elt Ideal) :=
  StableHlo.binary main_arg0 main_arg3 main_v28
    (Cert.Gcn.dense13 : (⟨S100000x13, .f32⟩ : BufTy).Contents (Elt Ideal) → (⟨S13x128, .f32⟩ : BufTy).Contents (Elt Ideal) → (⟨S100000x128, .f32⟩ : BufTy).Contents (Elt Ideal))

/-- Region 1: the first layer's normalise-and-clip. -/
def op1 : HloOp τ sig (Elt Ideal) :=
  StableHlo.nary ![main_v41, main_v28, main_v27, main_arg4, main_arg5, main_arg6, main_arg7, main_arg8] main_v42
    (fun u => Cert.Gcn.normClip (u 0) (u 1) (u 2) (u 3) (u 4) (u 5) (u 6) (u 7))

/-- Region 2: the first layer's output times the second weight. -/
def op2 : HloOp τ sig (Elt Ideal) :=
  StableHlo.binary main_v42 main_arg9 main_v43
    (Cert.Gcn.dense128 : (⟨S100000x128, .f32⟩ : BufTy).Contents (Elt Ideal) → (⟨S128x128, .f32⟩ : BufTy).Contents (Elt Ideal) → (⟨S100000x128, .f32⟩ : BufTy).Contents (Elt Ideal))

/-- Region 3: the second layer's normalise-and-clip. -/
def op3 : HloOp τ sig (Elt Ideal) :=
  StableHlo.nary ![main_v56, main_v43, main_v27, main_arg10, main_arg11, main_arg12, main_arg13, main_arg14] main_v57
    (fun u => Cert.Gcn.normClip (u 0) (u 1) (u 2) (u 3) (u 4) (u 5) (u 6) (u 7))

/-- Region 4: the second layer's output times the third weight. -/
def op4 : HloOp τ sig (Elt Ideal) :=
  StableHlo.binary main_v57 main_arg15 main_v58
    (Cert.Gcn.dense128 : (⟨S100000x128, .f32⟩ : BufTy).Contents (Elt Ideal) → (⟨S128x128, .f32⟩ : BufTy).Contents (Elt Ideal) → (⟨S100000x128, .f32⟩ : BufTy).Contents (Elt Ideal))

/-- Region 5: the third layer's normalise-and-clip. -/
def op5 : HloOp τ sig (Elt Ideal) :=
  StableHlo.nary ![main_v71, main_v58, main_v27, main_arg16, main_arg17, main_arg18, main_arg19, main_arg20] main_v72
    (fun u => Cert.Gcn.normClip (u 0) (u 1) (u 2) (u 3) (u 4) (u 5) (u 6) (u 7))

/-- Region 6: the classifier on the pooled features. -/
def op6 : HloOp τ sig (Elt Ideal) :=
  StableHlo.nary ![main_v84, main_arg21, main_arg22, main_arg23, main_arg24] main_v85
    (fun u => Cert.Gcn.classify (u 0) (u 1) (u 2) (u 3) (u 4))

/-! ## What each operation leaves: its function of its operands at its own buffer, every other buffer as it was -/

section OpResults

variable (V : Valuation τ sig (Elt Ideal))

theorem op0_result : op0.result V (no_index (Proc.devRef .tc main_v28))
    = Cert.Gcn.dense13 (V (Proc.devRef .tc main_arg0)) (V (Proc.devRef .tc main_arg3)) := by
  unfold op0; exact StableHlo.binary_result ..
theorem op0_result_ne {r : Ref sig .tc} (h : r ≠ main_v28) : op0.result V (no_index (Proc.devRef .tc r)) = V (Proc.devRef .tc r) := by
  unfold op0; exact StableHlo.binary_result_ne' _ _ _ _ V h

theorem op1_result : op1.result V (no_index (Proc.devRef .tc main_v42))
    = Cert.Gcn.normClip (V (Proc.devRef .tc main_v41)) (V (Proc.devRef .tc main_v28)) (V (Proc.devRef .tc main_v27))
        (V (Proc.devRef .tc main_arg4)) (V (Proc.devRef .tc main_arg5)) (V (Proc.devRef .tc main_arg6))
        (V (Proc.devRef .tc main_arg7)) (V (Proc.devRef .tc main_arg8)) := by
  unfold op1; exact StableHlo.nary_result ..
theorem op1_result_ne {r : Ref sig .tc} (h : r ≠ main_v42) : op1.result V (no_index (Proc.devRef .tc r)) = V (Proc.devRef .tc r) := by
  unfold op1; exact StableHlo.nary_result_ne' _ _ _ _ V h

theorem op2_result : op2.result V (no_index (Proc.devRef .tc main_v43))
    = Cert.Gcn.dense128 (V (Proc.devRef .tc main_v42)) (V (Proc.devRef .tc main_arg9)) := by
  unfold op2; exact StableHlo.binary_result ..
theorem op2_result_ne {r : Ref sig .tc} (h : r ≠ main_v43) : op2.result V (no_index (Proc.devRef .tc r)) = V (Proc.devRef .tc r) := by
  unfold op2; exact StableHlo.binary_result_ne' _ _ _ _ V h

theorem op3_result : op3.result V (no_index (Proc.devRef .tc main_v57))
    = Cert.Gcn.normClip (V (Proc.devRef .tc main_v56)) (V (Proc.devRef .tc main_v43)) (V (Proc.devRef .tc main_v27))
        (V (Proc.devRef .tc main_arg10)) (V (Proc.devRef .tc main_arg11)) (V (Proc.devRef .tc main_arg12))
        (V (Proc.devRef .tc main_arg13)) (V (Proc.devRef .tc main_arg14)) := by
  unfold op3; exact StableHlo.nary_result ..
theorem op3_result_ne {r : Ref sig .tc} (h : r ≠ main_v57) : op3.result V (no_index (Proc.devRef .tc r)) = V (Proc.devRef .tc r) := by
  unfold op3; exact StableHlo.nary_result_ne' _ _ _ _ V h

theorem op4_result : op4.result V (no_index (Proc.devRef .tc main_v58))
    = Cert.Gcn.dense128 (V (Proc.devRef .tc main_v57)) (V (Proc.devRef .tc main_arg15)) := by
  unfold op4; exact StableHlo.binary_result ..
theorem op4_result_ne {r : Ref sig .tc} (h : r ≠ main_v58) : op4.result V (no_index (Proc.devRef .tc r)) = V (Proc.devRef .tc r) := by
  unfold op4; exact StableHlo.binary_result_ne' _ _ _ _ V h

theorem op5_result : op5.result V (no_index (Proc.devRef .tc main_v72))
    = Cert.Gcn.normClip (V (Proc.devRef .tc main_v71)) (V (Proc.devRef .tc main_v58)) (V (Proc.devRef .tc main_v27))
        (V (Proc.devRef .tc main_arg16)) (V (Proc.devRef .tc main_arg17)) (V (Proc.devRef .tc main_arg18))
        (V (Proc.devRef .tc main_arg19)) (V (Proc.devRef .tc main_arg20)) := by
  unfold op5; exact StableHlo.nary_result ..
theorem op5_result_ne {r : Ref sig .tc} (h : r ≠ main_v72) : op5.result V (no_index (Proc.devRef .tc r)) = V (Proc.devRef .tc r) := by
  unfold op5; exact StableHlo.nary_result_ne' _ _ _ _ V h

theorem op6_result : op6.result V (no_index (Proc.devRef .tc main_v85))
    = Cert.Gcn.classify (V (Proc.devRef .tc main_v84)) (V (Proc.devRef .tc main_arg21)) (V (Proc.devRef .tc main_arg22))
        (V (Proc.devRef .tc main_arg23)) (V (Proc.devRef .tc main_arg24)) := by
  unfold op6; exact StableHlo.nary_result ..
theorem op6_result_ne {r : Ref sig .tc} (h : r ≠ main_v85) : op6.result V (no_index (Proc.devRef .tc r)) = V (Proc.devRef .tc r) := by
  unfold op6; exact StableHlo.nary_result_ne' _ _ _ _ V h

end OpResults

/-! ## Which windows of each region are inputs -/

theorem in0 : ∀ w : Fin cfg0.W, w ≠ 2 → (cfg0.win w).isOut = false := by decide
theorem in1 : ∀ w : Fin cfg1.W, w ≠ 8 → (cfg1.win w).isOut = false := by decide
theorem in2 : ∀ w : Fin cfg2.W, w ≠ 2 → (cfg2.win w).isOut = false := by decide
theorem in3 : ∀ w : Fin cfg3.W, w ≠ 8 → (cfg3.win w).isOut = false := by decide
theorem in4 : ∀ w : Fin cfg4.W, w ≠ 2 → (cfg4.win w).isOut = false := by decide
theorem in5 : ∀ w : Fin cfg5.W, w ≠ 8 → (cfg5.win w).isOut = false := by decide
theorem in6 : ∀ w : Fin cfg6.W, w ≠ 5 → (cfg6.win w).isOut = false := by decide

/-! ## The regions as operations -/

/-- What each region is assumed to leave in its one output array, at any entry contents `V`: the corresponding dense piece
    of the network applied to its input arrays as the region finds them. -/
structure RegionsCompute : Prop where
  r0 : ∀ (V : (c : Dev nD) → (b : Ref sig .tc) → Buf (Elt Ideal) ((c : Thread nD τ).loc b)) (c : Dev nD),
    (dat0 (F := Ideal) V c).arrAt 2 cfg0.N = Cert.Gcn.dense13 (V c main_arg0) (V c main_arg3)
  r1 : ∀ (V : (c : Dev nD) → (b : Ref sig .tc) → Buf (Elt Ideal) ((c : Thread nD τ).loc b)) (c : Dev nD),
    (dat1 (F := Ideal) V c).arrAt 8 cfg1.N = Cert.Gcn.normClip (V c main_v41) (V c main_v28) (V c main_v27) (V c main_arg4) (V c main_arg5) (V c main_arg6) (V c main_arg7) (V c main_arg8)
  r2 : ∀ (V : (c : Dev nD) → (b : Ref sig .tc) → Buf (Elt Ideal) ((c : Thread nD τ).loc b)) (c : Dev nD),
    (dat2 (F := Ideal) V c).arrAt 2 cfg2.N = Cert.Gcn.dense128 (V c main_v42) (V c main_arg9)
  r3 : ∀ (V : (c : Dev nD) → (b : Ref sig .tc) → Buf (Elt Ideal) ((c : Thread nD τ).loc b)) (c : Dev nD),
    (dat3 (F := Ideal) V c).arrAt 8 cfg3.N = Cert.Gcn.normClip (V c main_v56) (V c main_v43) (V c main_v27) (V c main_arg10) (V c main_arg11) (V c main_arg12) (V c main_arg13) (V c main_arg14)
  r4 : ∀ (V : (c : Dev nD) → (b : Ref sig .tc) → Buf (Elt Ideal) ((c : Thread nD τ).loc b)) (c : Dev nD),
    (dat4 (F := Ideal) V c).arrAt 2 cfg4.N = Cert.Gcn.dense128 (V c main_v57) (V c main_arg15)
  r5 : ∀ (V : (c : Dev nD) → (b : Ref sig .tc) → Buf (Elt Ideal) ((c : Thread nD τ).loc b)) (c : Dev nD),
    (dat5 (F := Ideal) V c).arrAt 8 cfg5.N = Cert.Gcn.normClip (V c main_v71) (V c main_v58) (V c main_v27) (V c main_arg16) (V c main_arg17) (V c main_arg18) (V c main_arg19) (V c main_arg20)
  r6 : ∀ (V : (c : Dev nD) → (b : Ref sig .tc) → Buf (Elt Ideal) ((c : Thread nD τ).loc b)) (c : Dev nD),
    (dat6 (F := Ideal) V c).arrAt 5 cfg6.N = Cert.Gcn.classify (V c main_v84) (V c main_arg21) (V c main_arg22) (V c main_arg23) (V c main_arg24)

variable (m : (ℓ : Loc nD τ sig) → Buf (Elt Ideal) ℓ) (ρ : Dev nD → PrngReg)

/-- Region 0 leaves what its operation leaves. -/
theorem step0 (H : RegionsCompute) (c : Dev nD) : W2 m ρ c = op0.result (W1 m ρ c) := by
  unfold W2
  refine Cert.RegionOp.withArrays_eq_result spec0 launch0.win.arr_inj c (W1 m ρ c) _ op0 2 rfl ?_ ?_
  · exact (H.r0 (V1 m ρ) c).trans (op0_result (W1 m ρ c)).symm
  · intro w hw
    exact ((dat0 (V1 m ρ) c).arrAt_in w (in0 w hw) cfg0.N).trans (A_eq0 (V1 m ρ) c w)

/-- Region 1 leaves what its operation leaves. -/
theorem step1 (H : RegionsCompute) (c : Dev nD) : W4 m ρ c = op1.result (W3 m ρ c) := by
  unfold W4
  refine Cert.RegionOp.withArrays_eq_result spec1 launch1.win.arr_inj c (W3 m ρ c) _ op1 8 rfl ?_ ?_
  · exact (H.r1 (V3 m ρ) c).trans (op1_result (W3 m ρ c)).symm
  · intro w hw
    exact ((dat1 (V3 m ρ) c).arrAt_in w (in1 w hw) cfg1.N).trans (A_eq1 (V3 m ρ) c w)

/-- Region 2 leaves what its operation leaves. -/
theorem step2 (H : RegionsCompute) (c : Dev nD) : W5 m ρ c = op2.result (W4 m ρ c) := by
  unfold W5
  refine Cert.RegionOp.withArrays_eq_result spec2 launch2.win.arr_inj c (W4 m ρ c) _ op2 2 rfl ?_ ?_
  · exact (H.r2 (V4 m ρ) c).trans (op2_result (W4 m ρ c)).symm
  · intro w hw
    exact ((dat2 (V4 m ρ) c).arrAt_in w (in2 w hw) cfg2.N).trans (A_eq2 (V4 m ρ) c w)

/-- Region 3 leaves what its operation leaves. -/
theorem step3 (H : RegionsCompute) (c : Dev nD) : W7 m ρ c = op3.result (W6 m ρ c) := by
  unfold W7
  refine Cert.RegionOp.withArrays_eq_result spec3 launch3.win.arr_inj c (W6 m ρ c) _ op3 8 rfl ?_ ?_
  · exact (H.r3 (V6 m ρ) c).trans (op3_result (W6 m ρ c)).symm
  · intro w hw
    exact ((dat3 (V6 m ρ) c).arrAt_in w (in3 w hw) cfg3.N).trans (A_eq3 (V6 m ρ) c w)

/-- Region 4 leaves what its operation leaves. -/
theorem step4 (H : RegionsCompute) (c : Dev nD) : W8 m ρ c = op4.result (W7 m ρ c) := by
  unfold W8
  refine Cert.RegionOp.withArrays_eq_result spec4 launch4.win.arr_inj c (W7 m ρ c) _ op4 2 rfl ?_ ?_
  · exact (H.r4 (V7 m ρ) c).trans (op4_result (W7 m ρ c)).symm
  · intro w hw
    exact ((dat4 (V7 m ρ) c).arrAt_in w (in4 w hw) cfg4.N).trans (A_eq4 (V7 m ρ) c w)

/-- Region 5 leaves what its operation leaves. -/
theorem step5 (H : RegionsCompute) (c : Dev nD) : W10 m ρ c = op5.result (W9 m ρ c) := by
  unfold W10
  refine Cert.RegionOp.withArrays_eq_result spec5 launch5.win.arr_inj c (W9 m ρ c) _ op5 8 rfl ?_ ?_
  · exact (H.r5 (V9 m ρ) c).trans (op5_result (W9 m ρ c)).symm
  · intro w hw
    exact ((dat5 (V9 m ρ) c).arrAt_in w (in5 w hw) cfg5.N).trans (A_eq5 (V9 m ρ) c w)

/-- Region 6 leaves what its operation leaves. -/
theorem step6 (H : RegionsCompute) (c : Dev nD) : W12 m ρ c = op6.result (W11 m ρ c) := by
  unfold W12
  refine Cert.RegionOp.withArrays_eq_result spec6 launch6.win.arr_inj c (W11 m ρ c) _ op6 5 rfl ?_ ?_
  · exact (H.r6 (V11 m ρ) c).trans (op6_result (W11 m ρ c)).symm
  · intro w hw
    exact ((dat6 (V11 m ρ) c).arrAt_in w (in6 w hw) cfg6.N).trans (A_eq6 (V11 m ρ) c w)

/-- The contents at the program's last boundary: the host stretches and the regions' operations, applied in order to the
    launch contents. -/
theorem last_boundary (H : RegionsCompute) (c : Dev nD) :
    W12 m ρ c = op6.result (after hostOps6 (op5.result (after hostOps5 (op4.result (op3.result (after hostOps3
      (op2.result (op1.result (after hostOps1 (op0.result (after hostOps0 (W0 m ρ c)))))))))))) := by
  rw [step6 m ρ H c]
  show op6.result (after hostOps6 (W10 m ρ c)) = _
  rw [step5 m ρ H c]
  show op6.result (after hostOps6 (op5.result (after hostOps5 (W8 m ρ c)))) = _
  rw [step4 m ρ H c, step3 m ρ H c]
  show op6.result (after hostOps6 (op5.result (after hostOps5 (op4.result (op3.result (after hostOps3 (W5 m ρ c))))))) = _
  rw [step2 m ρ H c, step1 m ρ H c]
  show op6.result (after hostOps6 (op5.result (after hostOps5 (op4.result (op3.result (after hostOps3
      (op2.result (op1.result (after hostOps1 (W2 m ρ c)))))))))) = _
  rw [step0 m ρ H c]

end Cert.KernelIdeal.Line

end
-- ==== Proof.LibColAsBroadcast.lean ====
/-
  A vector as a one-column array: a reshape is a broadcast.

  A length-a vector can be laid out as an [a, 1] column in two ways: reshaped (`x.reshape(-1, 1)`, a `shape_cast` or a host
  `reshape`), or broadcast along the column's first axis (`x[:, None]`, the host's `broadcast_in_dim` with dims = [0]).
  Both read, at (i, 0), the vector at i, so they are the same array.  The companion of the row statement (a vector
  reshaped to a [1, n] row is its broadcast along the row's second axis).
-/
import Idealize.ShloMosaic.Lib.ValueIdx
import Idealize.ShloMosaic.Lib.Pipeline.Value
import proofs.«152409_j70626442215629_1_alg».proof.Proof.LibRowOps
import proofs.«152409_j70626442215629_1_alg».proof.Proof.LibHostRowOps

noncomputable section

namespace Cert.ColAsBroadcast

open Idealize.ShloMosaic Idealize.ShloMosaic.ValueIdx

variable {α : Type} {a : Nat}

/-- The reshape of a length-`a` vector to an `[a, 1]` column is its broadcast along the column's first axis. -/
theorem col_eq (x : (⟨1, ![a]⟩ : Shape).Idx → α) (hs : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x hs = broadcastInDim ⟨2, ![a, 1]⟩ ![0] hb x :=
  funext fun j => by
    obtain ⟨i, u, rfl⟩ : ∃ (i : Fin a) (u : Fin 1), j = ix2 i u := ⟨j 0, j 1, eq_ix2 j⟩
    rw [Cert.RowOps.column_apply, Cert.HostRowOps.vecToCol_apply]

end Cert.ColAsBroadcast

end
-- ==== Proof.Scores.lean ====
/-
  The kernel program's class scores are the reference's.

  With each pipelined region read as the whole-array operation it computes, the kernel program is one line of whole-array
  operations over the launch contents.  Walking that line backwards from the result buffer — an operation's own buffer holds
  its function of its operands' contents before it, every other buffer what it held before — writes the class scores as one
  composed term of the argument arrays: in-degrees by a scatter-add of ones, their inverse square roots, the per-edge norms
  by two gathers, the self-loop norms as a column, three layers each of a product with a weight, a gather along the edges,
  a scatter-add back to the nodes and the entrywise normalise-and-clip, the per-graph means by two scatter-adds and a
  quotient, and the classifier.  The reference computes the same operations in the same order on the same arrays; the one
  difference in spelling is the self-loop norm column, which the kernel program reshapes from the length-n vector and the
  reference broadcasts along the column's first axis: the same array.
-/
import proofs.«152409_j70626442215629_1_alg».proof.Proof.Line
import proofs.«152409_j70626442215629_1_alg».proof.Proof.LibColAsBroadcast
import proofs.«152409_j70626442215629_1_alg».proof.Proof.Gen.ReferenceIdeal.Run

set_option maxRecDepth 16384

noncomputable section

namespace Cert.KernelIdeal.Line

open Idealize.ShloMosaic Idealize.ShloMosaic.TcCoe Idealize.ShloMosaic.StableHlo
open Cert.KernelIdeal Cert.KernelIdeal.Gen

variable (m : (ℓ : Loc nD τ sig) → Buf (Elt Ideal) ℓ) (ρ : Dev nD → PrngReg)

/-- The self-loop norms as a column: the length-n vector reshaped to [n, 1] is the vector broadcast along the column's first axis. -/
theorem snorm_col (x : (⟨S100000, .f32⟩ : BufTy).Contents (Elt Ideal)) :
    shapeCast main_v27.ty.shape x shapeCasts_S100000_S100000x1 = broadcastInDim S100000x1 ![0] bcast_S100000_S100000x1_0 x :=
  Cert.ColAsBroadcast.col_eq x _ _

set_option maxHeartbeats 16000000 in
/-- The result buffer at the kernel program's last boundary holds the reference's composed term of the argument arrays. -/
theorem scores_eq (H : RegionsCompute) (c : Dev nD)
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13))
    (h14 : m' ((c.tc : Thread Cert.ReferenceIdeal.nD Cert.ReferenceIdeal.τ).loc Cert.ReferenceIdeal.main_arg14) = m ((c.tc : Thread nD τ).loc main_arg14))
    (h15 : m' ((c.tc : Thread Cert.ReferenceIdeal.nD Cert.ReferenceIdeal.τ).loc Cert.ReferenceIdeal.main_arg15) = m ((c.tc : Thread nD τ).loc main_arg15))
    (h16 : m' ((c.tc : Thread Cert.ReferenceIdeal.nD Cert.ReferenceIdeal.τ).loc Cert.ReferenceIdeal.main_arg16) = m ((c.tc : Thread nD τ).loc main_arg16))
    (h17 : m' ((c.tc : Thread Cert.ReferenceIdeal.nD Cert.ReferenceIdeal.τ).loc Cert.ReferenceIdeal.main_arg17) = m ((c.tc : Thread nD τ).loc main_arg17))
    (h18 : m' ((c.tc : Thread Cert.ReferenceIdeal.nD Cert.ReferenceIdeal.τ).loc Cert.ReferenceIdeal.main_arg18) = m ((c.tc : Thread nD τ).loc main_arg18))
    (h19 : m' ((c.tc : Thread Cert.ReferenceIdeal.nD Cert.ReferenceIdeal.τ).loc Cert.ReferenceIdeal.main_arg19) = m ((c.tc : Thread nD τ).loc main_arg19))
    (h20 : m' ((c.tc : Thread Cert.ReferenceIdeal.nD Cert.ReferenceIdeal.τ).loc Cert.ReferenceIdeal.main_arg20) = m ((c.tc : Thread nD τ).loc main_arg20))
    (h21 : m' ((c.tc : Thread Cert.ReferenceIdeal.nD Cert.ReferenceIdeal.τ).loc Cert.ReferenceIdeal.main_arg21) = m ((c.tc : Thread nD τ).loc main_arg21))
    (h22 : m' ((c.tc : Thread Cert.ReferenceIdeal.nD Cert.ReferenceIdeal.τ).loc Cert.ReferenceIdeal.main_arg22) = m ((c.tc : Thread nD τ).loc main_arg22))
    (h23 : m' ((c.tc : Thread Cert.ReferenceIdeal.nD Cert.ReferenceIdeal.τ).loc Cert.ReferenceIdeal.main_arg23) = m ((c.tc : Thread nD τ).loc main_arg23))
    (h24 : m' ((c.tc : Thread Cert.ReferenceIdeal.nD Cert.ReferenceIdeal.τ).loc Cert.ReferenceIdeal.main_arg24) = m ((c.tc : Thread nD τ).loc main_arg24)) :
    W12 m ρ c (Proc.devRef .tc main_v85) = Cert.ReferenceIdeal.Value.res_main_v158 (F := Ideal) m' c := by
  rw [last_boundary m ρ H c]
  simp (disch := decide) only [after_cons, after_nil, hostOps0, hostOps1, hostOps3, hostOps5, hostOps6,
      nullary_result', unary_result', binary_result', ternary_result', quaternary_result', reshape_result', nary_result',
      nullary_result_ne', unary_result_ne', binary_result_ne', ternary_result_ne', quaternary_result_ne', reshape_result_ne', nary_result_ne',
      op0_result, op1_result, op2_result, op3_result, op4_result, op5_result, op6_result,
      op0_result_ne, op1_result_ne, op2_result_ne, op3_result_ne, op4_result_ne, op5_result_ne, op6_result_ne]
  rw [snorm_col]
  unfold Cert.ReferenceIdeal.Value.res_main_v158
  simp only [h0, h1, h2, h3, h4, h5, h6, h7, h8, h9, h10, h11, h12, h13, h14, h15, h16, h17, h18, h19, h20, h21, h22, h23, h24]
  unfold Cert.Gcn.classify Cert.Gcn.normClip Cert.Gcn.dense13 Cert.Gcn.dense128 Cert.Gcn.alongRows
  rfl

end Cert.KernelIdeal.Line

end
-- ==== Proof.lean ====
/-
  A three-layer graph convolution network with mean pooling and a two-layer classifier: the certificate.

  The kernel program computes the network with seven pipelined regions (three products with a weight, three entrywise
  normalise-and-clip passes, the classifier) among stretches of host operations (degrees, edge norms, gathers along the
  edges, scatter-adds back to the nodes, the per-graph means); the reference computes it with host operations only.

  Frames: the two kernel programs' runs terminate without a fault and leave the argument arrays unchanged (the generated
  launch over the segments); the reference's run does (its generated run, the result dropped).
  The idealization rewrote nothing, so there is nothing to preserve.
  Equal results on the extended reals: every region's output array ends at the whole-array operation it tiles — a block
  of rows of a product depends on that block of rows only, the entrywise pass is entrywise, the classifier has one
  block — so the kernel program is one line of whole-array operations, and its composed term of the argument arrays is the
  reference's, operation for operation.  No algebraic law is needed, and the inputs' finiteness is never used.
-/
import proofs.«152409_j70626442215629_1_alg».proof.Defs
import proofs.«152409_j70626442215629_1_alg».proof.Proof.Gen.Kernel
import proofs.«152409_j70626442215629_1_alg».proof.Proof.Gen.Kernel.Skeleton
import proofs.«152409_j70626442215629_1_alg».proof.Proof.Gen.Kernel.Launch
import proofs.«152409_j70626442215629_1_alg».proof.Proof.Gen.Kernel.Points
import proofs.«152409_j70626442215629_1_alg».proof.Proof.Gen.Kernel.Frame
import proofs.«152409_j70626442215629_1_alg».proof.Proof.Gen.KernelIdeal
import proofs.«152409_j70626442215629_1_alg».proof.Proof.Gen.KernelIdeal.Skeleton
import proofs.«152409_j70626442215629_1_alg».proof.Proof.Gen.KernelIdeal.Launch
import proofs.«152409_j70626442215629_1_alg».proof.Proof.Gen.KernelIdeal.Points
import proofs.«152409_j70626442215629_1_alg».proof.Proof.Gen.KernelIdeal.Frame
import proofs.«152409_j70626442215629_1_alg».proof.Proof.Gen.ReferenceIdeal
import proofs.«152409_j70626442215629_1_alg».proof.Proof.Gen.ReferenceIdeal.Run
import proofs.«152409_j70626442215629_1_alg».proof.Proof.Gen.Pre_finite_inputs
import proofs.«152409_j70626442215629_1_alg».proof.Proof.KernelRun
import proofs.«152409_j70626442215629_1_alg».proof.Proof.Dense0
import proofs.«152409_j70626442215629_1_alg».proof.Proof.Dense2
import proofs.«152409_j70626442215629_1_alg».proof.Proof.Dense4
import proofs.«152409_j70626442215629_1_alg».proof.Proof.Norm1
import proofs.«152409_j70626442215629_1_alg».proof.Proof.Norm3
import proofs.«152409_j70626442215629_1_alg».proof.Proof.Norm5
import proofs.«152409_j70626442215629_1_alg».proof.Proof.Classify6
import proofs.«152409_j70626442215629_1_alg».proof.Proof.Line
import proofs.«152409_j70626442215629_1_alg».proof.Proof.Scores
import Idealize.ShloMosaic.Adequacy
import Idealize.ShloMosaic.Init

noncomputable section

namespace Cert.Proof

open Idealize.ShloMosaic Idealize.SL.Sem Cert.Kernel

/-- Every region's output array ends at its dense piece of the network applied to its input arrays. -/
theorem regions : Cert.KernelIdeal.Line.RegionsCompute :=
  ⟨Cert.KernelIdeal.RegionValue.final0, Cert.KernelIdeal.RegionValue.final1, Cert.KernelIdeal.RegionValue.final2,
   Cert.KernelIdeal.RegionValue.final3, Cert.KernelIdeal.RegionValue.final4, Cert.KernelIdeal.RegionValue.final5,
   Cert.KernelIdeal.RegionValue.final6⟩

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Run from memories agreeing on the arguments, the kernel program's result buffer ends at the contents of its last
    boundary and the reference's at its composed term: the same array. -/
theorem algebraic : Cert.algebraic_KernelIdeal_ReferenceIdeal := by
  intro m ρ m' ρ' _ hagree
  refine ⟨_, Cert.KernelIdeal.RunValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24⟩ := hagree c
  exact (Cert.KernelIdeal.Line.scores_eq m ρ regions c m' h0 h1 h2 h3 h4 h5 h6 h7 h8 h9 h10 h11 h12 h13 h14 h15 h16 h17 h18 h19 h20 h21 h22 h23 h24).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
